-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S2048x1024 : Shape := ⟨2, ![2048, 1024]⟩
abbrev S2048x1 : Shape := ⟨2, ![2048, 1]⟩
abbrev S2048x128 : Shape := ⟨2, ![2048, 128]⟩
abbrev S1024x128 : Shape := ⟨2, ![1024, 128]⟩

abbrev nBuf : Space → Nat
  | .hbm => 13
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x128, .f32⟩
  | .hbm, ⟨5, _⟩ => ⟨S1x128, .f32⟩
  | .hbm, ⟨6, _⟩ => ⟨S8192x128, .f32⟩
  | .hbm, ⟨7, _⟩ => ⟨S8192x128, .f32⟩
  | .hbm, ⟨8, _⟩ => ⟨S8192x1, .f32⟩
  | .hbm, ⟨9, _⟩ => ⟨S8192x128, .f32⟩
  | .hbm, ⟨10, _⟩ => ⟨S8192x128, .f32⟩
  | .hbm, ⟨11, _⟩ => ⟨S8192x128, .bf16⟩
  | .hbm, ⟨12, _⟩ => ⟨S8192x128, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S2048x1024, .f32⟩
  | .local _ .vmem, ⟨5, _⟩ => ⟨S2048x1024, .f32⟩
  | .local _ .vmem, ⟨6, _⟩ => ⟨S8192x128, .bf16⟩
  | .local _ .vmem, ⟨7, _⟩ => ⟨S2048x1, .f32⟩
  | .local _ .vmem, ⟨8, _⟩ => ⟨S2048x1, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bcast_S8192x1_S8192x128_0_1 : S8192x1.BroadcastsInDim S8192x128 (![0, 1] : Fin 2 → Fin S8192x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  h_S1024x128 : 0 < S1024x128.numel
  shapeCasts_S1024x128_S1024x128 : S1024x128.ShapeCasts S1024x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  dot_S8192x128_S128x128_S8192x128_1_0_0_1_n_n_wf : DotDims.WF S8192x128 S128x128 S8192x128 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x128, .f32⟩
  | .hbm, ⟨5, _⟩ => ⟨S1x128, .f32⟩
  | .hbm, ⟨6, _⟩ => ⟨S8192x128, .f32⟩
  | .hbm, ⟨7, _⟩ => ⟨S8192x128, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KB.DegPass.lean ====
/-
  The degree pass: the first of the layer's two device passes over the adjacency matrix.

  The pass walks the 8192 rows of the adjacency in 16 blocks of 512 rows. At block `t` it reads the 512 × 8192
  block of rows, sums each row, takes the square root, adds the overflow margin and inverts: the block's 512
  inverse square-root degrees, written as a 512 × 1 column. Nothing is carried from one block to the next and the
  body has one control path, so what the column's buffer holds after the body is one store's value of the block
  of rows, and the pass's proof data are: each array as the pass finds it, the input block left in place, the
  output block at that value.

  Everything here is stated at a parameter `V`, the contents of the device's buffers when the pass is entered,
  and for any reading of the floats.
-/
import proofs.«128527_j89799176225551_2_alg».proof.Proof.Gen.Kernel.Launch
import proofs.«128527_j89799176225551_2_alg».proof.Proof.Gen.Kernel.Skeleton
import proofs.«128527_j89799176225551_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w` of the degree pass, read off the window's array as the pass finds it. -/
def degBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds block `t` of the adjacency whenever the body runs at `t`: the block is fetched
    at every point and the body leaves it in place. -/
theorem degBefore_of {c : Dev nD} (dat : Dat τ (Elt F) Unit ℕ (UR sig nD τ) ℕ cfg0 c) (hA : dat.A 0 = V c (Pipeline.arrRef spec0 0))
    (hafter : ∀ t, dat.after 0 t = degBlk V c 0 t) (t : Fin cfg0.N) (d) : dat.before 0 t d = degBlk V c 0 t :=
  (dat.before_in_eq_fetched 0 rfl (fun _ => rfl) (fun _ _ _ => rfl) (fun t => by rw [hafter]; unfold Dat.blockOf degBlk; rw [hA]; try rfl) t d).trans
    (by unfold Dat.fetched Dat.blockOf degBlk; rw [hA]; try rfl)

/-- The whole 512 × 8192 block of rows, and the whole 512 × 1 column. -/
abbrev rowsRect : Rect S512x8192 := Rect.unit (s := S512x8192) ![0, 0] S512x8192.size inb_S512x8192_S512x8192_0_0
abbrev colRect : Rect S512x1 := Rect.unit (s := S512x1) ![0, 0] S512x1.size inb_S512x1_S512x1_0_0

/-- The column the body leaves: its one store, of the inverse square-root degrees of the block of rows. -/
def dinvCol (x0 : Vec F S512x8192 .f32) : Vec F S512x1 .f32 :=
  View.canon [⟨colRect, k0_pay1 (View.ld x0 rowsRect)⟩]

/-- The one store covers the column. -/
theorem dinvCol_cover (p0 : Vec F S512x1 .f32) (y : S512x1.Idx) :
    ∃ pc ∈ ([⟨colRect, p0⟩] : List (View.Piece (Elt F) S512x1 .f32)), y ∈ pc.1.set :=
  View.cover_of_tiled [⟨colRect, p0⟩] S512x1.size (by rfl) y

set_option maxHeartbeats 1000000 in
/-- The body on whole staging buffers, the rows' at `x0` and the column's at anything, runs to the end with the
    rows' as they were and the column's at `dinvCol x0`. -/
theorem degKernel_sound (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (dinvCol x0)) -∗ K ⟨⟩))
      ⊢ wp frame (wpE (defs₀ (F := F)) Variants.none c none) E (cc0__row_sum_kernel i arg1 harg1 arg2 harg2) K := by
  simp only [cc0__row_sum_kernel_eq_skeleton]; unfold cc0__row_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (dinvCol_cover _)

/-- The degree pass's proof data on core `c`. -/
def degDat (c : Dev nD) : Dat τ (Elt F) Unit ℕ (UR sig nD τ) ℕ cfg0 c where
  A w := V c (Pipeline.arrRef spec0 w)
  after w t := match w with
    | ⟨0, _⟩ => degBlk V c 0 t
    | ⟨1, _⟩ => dinvCol (degBlk V c 0 t)
  Φ _ := Pipeline.ΦA spec0 c
  q _ := fullShare
  owed _ := 0

theorem degDat_A (c : Dev nD) (w : Fin cfg0.W) : (degDat V c).A w = V c (Pipeline.arrRef spec0 w) := by
  dsimp only [degDat]
theorem degDat_after0 (c : Dev nD) (t : Fin cfg0.N) : (degDat V c).after 0 t = degBlk V c 0 t := by dsimp only [degDat]
theorem degDat_after1 (c : Dev nD) (t : Fin cfg0.N) : (degDat V c).after 1 t = dinvCol (degBlk V c 0 t) := by dsimp only [degDat]
theorem degDat_before0 (c : Dev nD) (t : Fin cfg0.N) (d) : (degDat V c).before 0 t d = degBlk V c 0 t :=
  degBefore_of V (degDat V c) (degDat_A V c 0) (degDat_after0 V c) t d

/-- What the body is called with at block `t`, and what it returns. -/
def degPre (c : Dev nD) (t : Fin cfg0.N) : sProp 𝕄 :=
  iprop((degDat V c).Φ t.castSucc ∗ (degDat V c).owesAt () t.castSucc
    ∗ (∃ d, owns (c : Thread nD τ) (st0_0 t) fullShare ((degDat V c).before 0 t d))
    ∗ (∃ d, owns (c : Thread nD τ) (st0_1 t) fullShare ((degDat V c).before 1 t d)))
def degPost (c : Dev nD) (t : Fin cfg0.N) : sProp 𝕄 :=
  iprop((degDat V c).Φ t.succ ∗ (degDat V c).owesAt () t.succ
    ∗ owns (c : Thread nD τ) (st0_0 t) fullShare ((degDat V c).after 0 t)
    ∗ owns (c : Thread nD τ) (st0_1 t) fullShare ((degDat V c).after 1 t))

theorem degBody_sound (c : Dev nD) (t : Fin cfg0.N) :
    degPre V c t ⊢ wp frame (wpE (defs₀ (F := F)) Variants.none c none) Set.univ (bodyAt0 t) (fun _ => degPost V c t) := by
  unfold degPre degPost bodyAt0
  simp only [degDat_before0]
  rw [show (degDat V c).Φ t.succ = (degDat V c).Φ t.castSucc from rfl,
    show (degDat V c).owesAt () t.succ = (degDat V c).owesAt () t.castSucc from rfl,
    degDat_after0, degDat_after1]
  iintro ⟨HΦ, Ho, ⟨%d0, H0⟩, ⟨%d1, H1⟩⟩
  iapply (degKernel_sound c Set.univ _ _ _ _ _ (degBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree pass, at every block. -/
theorem degObligation (c : Dev nD) : BodyObligation (degDat (F := F) V c) (defs₀ (F := F)) Variants.none () Set.univ := fun t => by
  rw [bigSep_W0, bigSep_W0]
  exact degBody_sound V c t

end Cert.Kernel.Conv

end
-- ==== Proof.KB.ConvRuns.lean ====
/-
  The product pass: the second device pass over the adjacency matrix.

  The pass walks the adjacency in 4 × 8 blocks of 2048 rows by 1024 columns, row blocks outermost. The scaled
  projection (8192 × 128, in bf16) is held whole; the inverse square-root degrees come in as the 2048 × 1 column
  of the row block. Within a row block the 8 column steps accumulate, in a scratch buffer that outlives a step,
  the products of the adjacency block with the matching 1024 rows of the scaled projection: the first step
  clears the scratch and adds its product, the middle steps add theirs, and the last step adds its product and
  then writes the scratch, each row scaled by its inverse square-root degree, into the output block — the only
  step at which the output block is written, and the only one after which it is copied back.

  So a point of the grid is in one of three control paths, decided by its column step `t mod 8` (0, 1…6, 7).
  For each path the body's run is stated on any whole staging buffers; what the scratch and the output block
  hold after point `t` is then defined by recursion on `t` (`convAt`), the scratch of a middle or last step
  taken from the point before. The region's invariant carries the scratch at those contents between points.

  Everything is stated at a parameter `V`, the contents of the device's buffers when the pass is entered, and
  for any reading of the floats.
-/
import proofs.«128527_j89799176225551_2_alg».proof.Proof.Gen.Kernel.Launch
import proofs.«128527_j89799176225551_2_alg».proof.Proof.Gen.Kernel.Skeleton
import proofs.«128527_j89799176225551_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block `t` of window `w` of the product pass, read off the window's array as the pass finds it. -/
def convBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not (an unfetched
    window's block index has not moved), given that the body leaves the block in place. -/
theorem convBefore0_of {c : Dev nD} (dat : Dat τ (Elt F) Unit ℕ (UR sig nD τ) ℕ cfg1 c) (hA : dat.A 0 = V c (Pipeline.arrRef spec1 0))
    (hafter : ∀ t, dat.after 0 t = convBlk V c 0 t) (t : Fin cfg1.N) (d) : dat.before 0 t d = convBlk V c 0 t :=
  (dat.before_in_eq_fetched 0 rfl (fun _ => rfl) (fun _ _ _ => rfl) (fun t => by rw [hafter]; unfold Dat.blockOf convBlk; rw [hA]; try rfl) t d).trans
    (by unfold Dat.fetched Dat.blockOf convBlk; rw [hA]; try rfl)
theorem convBefore1_of {c : Dev nD} (dat : Dat τ (Elt F) Unit ℕ (UR sig nD τ) ℕ cfg1 c) (hA : dat.A 1 = V c (Pipeline.arrRef spec1 1))
    (hafter : ∀ t, dat.after 1 t = convBlk V c 1 t) (t : Fin cfg1.N) (d) : dat.before 1 t d = convBlk V c 1 t :=
  (dat.before_in_eq_fetched 1 rfl (fun _ => rfl) (fun _ _ _ => rfl) (fun t => by rw [hafter]; unfold Dat.blockOf convBlk; rw [hA]; try rfl) t d).trans
    (by unfold Dat.fetched Dat.blockOf convBlk; rw [hA]; try rfl)
theorem convBefore2_of {c : Dev nD} (dat : Dat τ (Elt F) Unit ℕ (UR sig nD τ) ℕ cfg1 c) (hA : dat.A 2 = V c (Pipeline.arrRef spec1 2))
    (hafter : ∀ t, dat.after 2 t = convBlk V c 2 t) (t : Fin cfg1.N) (d) : dat.before 2 t d = convBlk V c 2 t :=
  (dat.before_in_eq_fetched 2 rfl (fun _ => rfl) (fun _ _ _ => rfl) (fun t => by rw [hafter]; unfold Dat.blockOf convBlk; rw [hA]; try rfl) t d).trans
    (by unfold Dat.fetched Dat.blockOf convBlk; rw [hA]; try rfl)

/-! ## The column step decides the control path -/

/-- The body's first branch: taken at the first column step of a row block. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)
/-- The body's second branch: taken at the last column step of a row block. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-- The input windows are live at every point; the output window is idle, and not copied back, except at a last
    column step. -/
theorem in_live0 : ∀ t : Fin cfg1.N, cfg1.idle 0 (grid1.coords t) = false := by decide +kernel
theorem in_live1 : ∀ t : Fin cfg1.N, cfg1.idle 1 (grid1.coords t) = false := by decide +kernel
theorem in_live2 : ∀ t : Fin cfg1.N, cfg1.idle 2 (grid1.coords t) = false := by decide +kernel
theorem out_idle : ∀ t : Fin cfg1.N, ¬isLast (grid1.coords t) → cfg1.idle 3 (grid1.coords t) = true := by decide +kernel
theorem out_noFlush : ∀ t : Fin cfg1.N, ¬isLast (grid1.coords t) → (cfg1.win 3).flush t = false := by decide +kernel
theorem out_live : ∀ t : Fin cfg1.N, isLast (grid1.coords t) → cfg1.idle 3 (grid1.coords t) = false := by decide +kernel

/-! ## The buffers the body is called on -/

abbrev mA (t : Fin cfg1.N) : Memref sig .tc .vmem S2048x1024 .f32 := win1_0.stage (cfg1.slots t 0)
abbrev hmA (t : Fin cfg1.N) : (mA t).IsWhole := hstage1_0 ((cfg1.slots t 0).cast nbuf1_0)
abbrev mX (t : Fin cfg1.N) : Memref sig .tc .vmem S8192x128 .bf16 := win1_1.stage (cfg1.slots t 1)
abbrev hmX (t : Fin cfg1.N) : (mX t).IsWhole := hstage1_1 ((cfg1.slots t 1).cast nbuf1_1)
abbrev mD (t : Fin cfg1.N) : Memref sig .tc .vmem S2048x1 .f32 := win1_2.stage (cfg1.slots t 2)
abbrev hmD (t : Fin cfg1.N) : (mD t).IsWhole := hstage1_2 ((cfg1.slots t 2).cast nbuf1_2)
abbrev mO (t : Fin cfg1.N) : Memref sig .tc .vmem S2048x128 .f32 := win1_3.stage (cfg1.slots t 3)
abbrev hmO (t : Fin cfg1.N) : (mO t).IsWhole := hstage1_3 ((cfg1.slots t 3).cast nbuf1_3)
/-- The accumulator: a whole scoped buffer of the kernel's own. -/
abbrev accM : Memref sig .tc .vmem S2048x128 .f32 := Memref.whole cc1_scratch0
/-- Views through which the accumulator's and the output block's contents are stated. -/
abbrev VS : View sig .tc .vmem S2048x128 .f32 := accM.view
abbrev VO : View sig .tc .vmem S2048x128 .f32 := (Memref.whole cc1_stg3_0 : Memref sig .tc .vmem S2048x128 .f32).view

/-- The scoped buffers that are no staging buffer of this pass — the degree pass's four staging buffers, each at
    some contents — beside a statement `S` about the accumulator. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S)

/-- The class's invariant with the accumulator as a memref owned at some contents. -/
theorem PhiA_eq (c : Dev nD) :
    (Pipeline.ΦA spec1 c : sProp 𝕄) = iprop(scopedWith c iprop(∃ d, owns (c : Thread nD τ) accM fullShare d) ∗ (∃ r, prngReg c r)) := by
  unfold Pipeline.ΦA scopedWith; rw [scopedRest1_eq]; simp only [accM, owns_whole]; try rfl

/-! ## The body's run, path by path -/

set_option maxHeartbeats 4000000 in
/-- FIRST column step. On whole staging buffers — the inputs' at their contents, the output block's at contents
    handed back untouched, the accumulator at anything — the body runs to the end with the inputs' as they were
    and the accumulator with the run's pieces written (the pieces are the witness the run finds). -/
noncomputable def runFirst (c : Dev nD) (i : grid1.Coords) (arg2 : Memref sig .tc .vmem S2048x1024 .f32) (harg2 : arg2.IsWhole) (arg3 : Memref sig .tc .vmem S8192x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : isFirst i) (hc1 : ¬isLast i)
    (x0 : Vec F S2048x1024 .f32) (x1 : Vec F S8192x128 .bf16) (x2 : Vec F S2048x1 .f32) :
    { LS : List (View.Piece (Elt F) S2048x128 .f32) //
      ∀ (xi : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- MIDDLE column step: as the first, the accumulator entering at the contents `xs` the point before left. -/
noncomputable def runMid (c : Dev nD) (i : grid1.Coords) (arg2 : Memref sig .tc .vmem S2048x1024 .f32) (harg2 : arg2.IsWhole) (arg3 : Memref sig .tc .vmem S8192x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬isFirst i) (hc1 : ¬isLast i)
    (x0 : Vec F S2048x1024 .f32) (x1 : Vec F S8192x128 .bf16) (x2 : Vec F S2048x1 .f32) (xs : Vec F S2048x128 .f32) :
    { LS : List (View.Piece (Elt F) S2048x128 .f32) //
      ∀ (xi : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- LAST column step: the accumulator enters at `xs`, the output block's buffer at anything; both leave with the
    run's pieces written. -/
noncomputable def runLast (c : Dev nD) (i : grid1.Coords) (arg2 : Memref sig .tc .vmem S2048x1024 .f32) (harg2 : arg2.IsWhole) (arg3 : Memref sig .tc .vmem S8192x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬isFirst i) (hc1 : isLast i)
    (x0 : Vec F S2048x1024 .f32) (x1 : Vec F S8192x128 .bf16) (x2 : Vec F S2048x1 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Conv

end
-- ==== Proof.KB.ConvPass.lean ====
/-
  The product pass, point by point.

  What the accumulator and the output block hold after point `t` (`convAt`, a pair: the output block, the
  accumulator), by recursion on `t`: at a first column step the accumulator is the run's pieces written over
  anything; at a middle or last step the pieces of a run entered with the accumulator the point before left;
  the output block is the last step's pieces, and a placeholder nobody reads elsewhere (the window is idle
  there: neither copied back nor read at the next point). The region's invariant `PhiS` is the class's before
  the first point and afterwards holds the accumulator at `convAt`'s second component, beside the other scoped
  buffers and the generator register. With the proof data (`convDat`) this gives the body obligation at every
  point, by cases on the column step.
-/
import proofs.«128527_j89799176225551_2_alg».proof.Proof.KB.ConvRuns

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each path leaves -/

/-- The accumulator after a first column step at point `t`. -/
def accFirst (c : Dev nD) (t : Fin cfg1.N) (h0 : isFirst (grid1.coords t)) (h1 : ¬isLast (grid1.coords t)) : Vec F S2048x128 .f32 :=
  VS.read (Elt F) (VS.writes (Elt F) VS.junk (runFirst c (grid1.coords t) (mA t) (hmA t) (mX t) (hmX t) (mD t) (hmD t) (mO t) (hmO t) accM (Memref.isWhole_whole _) h0 h1 (convBlk V c 0 t) (convBlk V c 1 t) (convBlk V c 2 t)).1)
theorem accFirst_cover (c : Dev nD) (t : Fin cfg1.N) (h0 : isFirst (grid1.coords t)) (h1 : ¬isLast (grid1.coords t)) (y : S2048x128.Idx) :
    ∃ pc ∈ (runFirst c (grid1.coords t) (mA t) (hmA t) (mX t) (hmX t) (mD t) (hmD t) (mO t) (hmO t) accM (Memref.isWhole_whole _) h0 h1 (convBlk V c 0 t) (convBlk V c 1 t) (convBlk V c 2 t)).1, y ∈ pc.1.set :=
  View.cover_of_tiledL (runFirst c (grid1.coords t) (mA t) (hmA t) (mX t) (hmX t) (mD t) (hmD t) (mO t) (hmO t) accM (Memref.isWhole_whole _) h0 h1 (convBlk V c 0 t) (convBlk V c 1 t) (convBlk V c 2 t)).1 S2048x128.size (by sl_kernel_rfl) y

/-- The accumulator after a middle column step at point `t` entered with the accumulator at `xs`. -/
def accMid (c : Dev nD) (t : Fin cfg1.N) (h0 : ¬isFirst (grid1.coords t)) (h1 : ¬isLast (grid1.coords t)) (xs : Vec F S2048x128 .f32) : Vec F S2048x128 .f32 :=
  VS.read (Elt F) (VS.writes (Elt F) VS.junk (runMid c (grid1.coords t) (mA t) (hmA t) (mX t) (hmX t) (mD t) (hmD t) (mO t) (hmO t) accM (Memref.isWhole_whole _) h0 h1 (convBlk V c 0 t) (convBlk V c 1 t) (convBlk V c 2 t) xs).1)
theorem accMid_cover (c : Dev nD) (t : Fin cfg1.N) (h0 : ¬isFirst (grid1.coords t)) (h1 : ¬isLast (grid1.coords t)) (xs : Vec F S2048x128 .f32) (y : S2048x128.Idx) :
    ∃ pc ∈ (runMid c (grid1.coords t) (mA t) (hmA t) (mX t) (hmX t) (mD t) (hmD t) (mO t) (hmO t) accM (Memref.isWhole_whole _) h0 h1 (convBlk V c 0 t) (convBlk V c 1 t) (convBlk V c 2 t) xs).1, y ∈ pc.1.set :=
  View.cover_of_tiledL (runMid c (grid1.coords t) (mA t) (hmA t) (mX t) (hmX t) (mD t) (hmD t) (mO t) (hmO t) accM (Memref.isWhole_whole _) h0 h1 (convBlk V c 0 t) (convBlk V c 1 t) (convBlk V c 2 t) xs).1 S2048x128.size (by sl_kernel_rfl) y

/-- The accumulator and the output block after a last column step at point `t` entered with the accumulator at `xs`. -/
def accLast (c : Dev nD) (t : Fin cfg1.N) (h0 : ¬isFirst (grid1.coords t)) (h1 : isLast (grid1.coords t)) (xs : Vec F S2048x128 .f32) : Vec F S2048x128 .f32 :=
  VS.read (Elt F) (VS.writes (Elt F) VS.junk (runLast c (grid1.coords t) (mA t) (hmA t) (mX t) (hmX t) (mD t) (hmD t) (mO t) (hmO t) accM (Memref.isWhole_whole _) h0 h1 (convBlk V c 0 t) (convBlk V c 1 t) (convBlk V c 2 t) xs).2.1)
theorem accLast_cover (c : Dev nD) (t : Fin cfg1.N) (h0 : ¬isFirst (grid1.coords t)) (h1 : isLast (grid1.coords t)) (xs : Vec F S2048x128 .f32) (y : S2048x128.Idx) :
    ∃ pc ∈ (runLast c (grid1.coords t) (mA t) (hmA t) (mX t) (hmX t) (mD t) (hmD t) (mO t) (hmO t) accM (Memref.isWhole_whole _) h0 h1 (convBlk V c 0 t) (convBlk V c 1 t) (convBlk V c 2 t) xs).2.1, y ∈ pc.1.set :=
  View.cover_of_tiledL (runLast c (grid1.coords t) (mA t) (hmA t) (mX t) (hmX t) (mD t) (hmD t) (mO t) (hmO t) accM (Memref.isWhole_whole _) h0 h1 (convBlk V c 0 t) (convBlk V c 1 t) (convBlk V c 2 t) xs).2.1 S2048x128.size (by sl_kernel_rfl) y
def outLast (c : Dev nD) (t : Fin cfg1.N) (h0 : ¬isFirst (grid1.coords t)) (h1 : isLast (grid1.coords t)) (xs : Vec F S2048x128 .f32) : Vec F S2048x128 .f32 :=
  VO.read (Elt F) (VO.writes (Elt F) VO.junk (runLast c (grid1.coords t) (mA t) (hmA t) (mX t) (hmX t) (mD t) (hmD t) (mO t) (hmO t) accM (Memref.isWhole_whole _) h0 h1 (convBlk V c 0 t) (convBlk V c 1 t) (convBlk V c 2 t) xs).1)
theorem outLast_cover (c : Dev nD) (t : Fin cfg1.N) (h0 : ¬isFirst (grid1.coords t)) (h1 : isLast (grid1.coords t)) (xs : Vec F S2048x128 .f32) (y : S2048x128.Idx) :
    ∃ pc ∈ (runLast c (grid1.coords t) (mA t) (hmA t) (mX t) (hmX t) (mD t) (hmD t) (mO t) (hmO t) accM (Memref.isWhole_whole _) h0 h1 (convBlk V c 0 t) (convBlk V c 1 t) (convBlk V c 2 t) xs).1, y ∈ pc.1.set :=
  View.cover_of_tiledL (runLast c (grid1.coords t) (mA t) (hmA t) (mX t) (hmX t) (mD t) (hmD t) (mO t) (hmO t) accM (Memref.isWhole_whole _) h0 h1 (convBlk V c 0 t) (convBlk V c 1 t) (convBlk V c 2 t) xs).1 S2048x128.size (by sl_kernel_rfl) y

/-- The output block where the window is idle: a placeholder nothing reads. -/
def outIdle : Vec F S2048x128 .f32 := VO.read (Elt F) (VO.writes (Elt F) VO.junk [])

/-! ## The accumulation over the points -/

/-- What the output block's buffer and the accumulator hold after the body at point `n`. -/
def convAt (c : Dev nD) : (n : ℕ) → n < cfg1.N → Vec F S2048x128 .f32 × Vec F S2048x128 .f32
  | 0, hn => (outIdle, accFirst V c ⟨0, hn⟩ ((isFirst_iff ⟨0, hn⟩).mpr (Nat.zero_mod _)) (fun h => (fun h' => by (try dsimp only at h'); omega) ((isLast_iff ⟨0, hn⟩).mp h)))
  | n + 1, hn =>
    if h0 : (n + 1) % 8 = 0 then
      (outIdle, accFirst V c ⟨n + 1, hn⟩ ((isFirst_iff ⟨n + 1, hn⟩).mpr h0) (fun h => (fun h' => by (try dsimp only at h'); omega) ((isLast_iff ⟨n + 1, hn⟩).mp h)))
    else if h1 : (n + 1) % 8 = 7 then
      (outLast V c ⟨n + 1, hn⟩ (fun h => h0 ((isFirst_iff ⟨n + 1, hn⟩).mp h)) ((isLast_iff ⟨n + 1, hn⟩).mpr h1) (convAt c n (Nat.lt_of_succ_lt hn)).2,
       accLast V c ⟨n + 1, hn⟩ (fun h => h0 ((isFirst_iff ⟨n + 1, hn⟩).mp h)) ((isLast_iff ⟨n + 1, hn⟩).mpr h1) (convAt c n (Nat.lt_of_succ_lt hn)).2)
    else
      (outIdle, accMid V c ⟨n + 1, hn⟩ (fun h => h0 ((isFirst_iff ⟨n + 1, hn⟩).mp h)) (fun h => h1 ((isLast_iff ⟨n + 1, hn⟩).mp h)) (convAt c n (Nat.lt_of_succ_lt hn)).2)

theorem convAt_first (c : Dev nD) (t : Fin cfg1.N) (h0 : t.val % 8 = 0) :
    convAt V c t.val t.isLt = (outIdle, accFirst V c t ((isFirst_iff t).mpr h0) (fun h => by have := (isLast_iff t).mp h; omega)) := by
  obtain ⟨n, hn⟩ := t
  cases n with
  | zero => exact rfl
  | succ n => exact (dif_pos h0).trans rfl

theorem convAt_mid (c : Dev nD) (t : Fin cfg1.N) (h0 : ¬t.val % 8 = 0) (h1 : ¬t.val % 8 = 7) :
    convAt V c t.val t.isLt = (outIdle, accMid V c t (fun h => h0 ((isFirst_iff t).mp h)) (fun h => h1 ((isLast_iff t).mp h)) (convAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem convAt_last (c : Dev nD) (t : Fin cfg1.N) (h0 : ¬t.val % 8 = 0) (h1 : t.val % 8 = 7) :
    convAt V c t.val t.isLt = (outLast V c t (fun h => h0 ((isFirst_iff t).mp h)) ((isLast_iff t).mpr h1) (convAt V c (t.val - 1) (Nat.lt_of_le_of_lt (Nat.sub_le _ _) t.isLt)).2,
      accLast V c t (fun h => h0 ((isFirst_iff t).mp h)) ((isLast_iff t).mpr h1) (convAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the accumulator -/

def PhiS (c : Dev nD) : (n : ℕ) → n ≤ cfg1.N → sProp 𝕄
  | 0, _ => Pipeline.ΦA spec1 c
  | n + 1, hn => iprop(scopedWith c (owns (c : Thread nD τ) accM fullShare ((convAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) accM fullShare ((convAt V c n hn).2)) ∗ (∃ r, prngReg c r)) := rfl
theorem PhiS_pos (c : Dev nD) (n : ℕ) (h : n ≤ cfg1.N) (hz : n ≠ 0) :
    PhiS V c n h = iprop(scopedWith c (owns (c : Thread nD τ) accM fullShare ((convAt V c (n - 1) (by omega)).2)) ∗ (∃ r, prngReg c r)) := by
  cases n with
  | zero => exact absurd rfl hz
  | succ n => rfl

/-! ## The proof data -/

def convDat (c : Dev nD) : Dat τ (Elt F) Unit ℕ (UR sig nD τ) ℕ cfg1 c where
  A w := V c (Pipeline.arrRef spec1 w)
  after w t := match w with
    | ⟨0, _⟩ => convBlk V c 0 t
    | ⟨1, _⟩ => convBlk V c 1 t
    | ⟨2, _⟩ => convBlk V c 2 t
    | ⟨3, _⟩ => (convAt V c t.val t.isLt).1
  Φ t := PhiS V c t.val (Nat.le_of_lt_succ t.isLt)
  q _ := fullShare
  owed _ := 0

theorem convDat_A (c : Dev nD) (w : Fin cfg1.W) : (convDat V c).A w = V c (Pipeline.arrRef spec1 w) := by
  dsimp only [convDat]
theorem convDat_Phi_castSucc (c : Dev nD) (t : Fin cfg1.N) :
    (convDat V c).Φ t.castSucc = PhiS V c t.val (Nat.le_of_lt t.isLt) := by
  dsimp only [convDat]; simp only [Fin.coe_castSucc]
theorem convDat_after0 (c : Dev nD) (t : Fin cfg1.N) : (convDat V c).after 0 t = convBlk V c 0 t := by dsimp only [convDat]
theorem convDat_after1 (c : Dev nD) (t : Fin cfg1.N) : (convDat V c).after 1 t = convBlk V c 1 t := by dsimp only [convDat]
theorem convDat_after2 (c : Dev nD) (t : Fin cfg1.N) : (convDat V c).after 2 t = convBlk V c 2 t := by dsimp only [convDat]
theorem convDat_after3 (c : Dev nD) (t : Fin cfg1.N) : (convDat V c).after 3 t = (convAt V c t.val t.isLt).1 := by dsimp only [convDat]
theorem convDat_before0 (c : Dev nD) (t : Fin cfg1.N) (d) : (convDat V c).before 0 t d = convBlk V c 0 t :=
  convBefore0_of V (convDat V c) (convDat_A V c 0) (convDat_after0 V c) t d
theorem convDat_before1 (c : Dev nD) (t : Fin cfg1.N) (d) : (convDat V c).before 1 t d = convBlk V c 1 t :=
  convBefore1_of V (convDat V c) (convDat_A V c 1) (convDat_after1 V c) t d
theorem convDat_before2 (c : Dev nD) (t : Fin cfg1.N) (d) : (convDat V c).before 2 t d = convBlk V c 2 t :=
  convBefore2_of V (convDat V c) (convDat_A V c 2) (convDat_after2 V c) t d

/-! ## The body obligation -/

def convPre (c : Dev nD) (t : Fin cfg1.N) : sProp 𝕄 :=
  iprop((convDat V c).Φ t.castSucc ∗ (convDat V c).owesAt () t.castSucc
    ∗ (∃ d, owns (c : Thread nD τ) (mA t) fullShare ((convDat V c).before 0 t d))
    ∗ (∃ d, owns (c : Thread nD τ) (mX t) fullShare ((convDat V c).before 1 t d))
    ∗ (∃ d, owns (c : Thread nD τ) (mD t) fullShare ((convDat V c).before 2 t d))
    ∗ (∃ d, owns (c : Thread nD τ) (mO t) fullShare ((convDat V c).before 3 t d)))

def convPost (c : Dev nD) (t : Fin cfg1.N) : sProp 𝕄 :=
  iprop((convDat V c).Φ t.succ ∗ (convDat V c).owesAt () t.succ
    ∗ (convDat V c).leavesExact 0 t
    ∗ (convDat V c).leavesExact 1 t
    ∗ (convDat V c).leavesExact 2 t
    ∗ (convDat V c).leavesExact 3 t)

theorem leaves_in0 (c : Dev nD) (t : Fin cfg1.N) : (convDat V c).leavesExact 0 t = owns (c : Thread nD τ) (mA t) fullShare (convBlk V c 0 t) := by
  unfold Dat.leavesExact; rw [in_live0 t, convDat_after0]
theorem leaves_in1 (c : Dev nD) (t : Fin cfg1.N) : (convDat V c).leavesExact 1 t = owns (c : Thread nD τ) (mX t) fullShare (convBlk V c 1 t) := by
  unfold Dat.leavesExact; rw [in_live1 t, convDat_after1]
theorem leaves_in2 (c : Dev nD) (t : Fin cfg1.N) : (convDat V c).leavesExact 2 t = owns (c : Thread nD τ) (mD t) fullShare (convBlk V c 2 t) := by
  unfold Dat.leavesExact; rw [in_live2 t, convDat_after2]

set_option maxHeartbeats 4800000 in
theorem convBody_sound (c : Dev nD) (t : Fin cfg1.N) :
    convPre V c t ⊢ wp frame (wpE (defs₀ (F := F)) Variants.none c none) Set.univ (bodyAt1 t) (fun _ => convPost V c t) := by
  unfold convPre convPost bodyAt1
  simp only [convDat_before0, convDat_before1, convDat_before2]
  rw [show (convDat V c).owesAt () t.succ = (convDat V c).owesAt () t.castSucc from rfl]
  rw [show (convDat V c).Φ t.succ = PhiS V c (t.val + 1) t.isLt from rfl, PhiS_succ]
  rw [leaves_in0, leaves_in1, leaves_in2]
  have hN : t.val < 32 := lt_of_lt_of_eq t.isLt (show cfg1.N = 32 from N_1)
  by_cases h0 : t.val % 8 = 0
  · have hnl : ¬isLast (grid1.coords t) := fun h => by have := (isLast_iff t).mp h; omega
    rw [Dat.leavesExact_idle (convDat V c) 3 t (out_idle t hnl) (out_noFlush t hnl)]
    rw [convAt_first V c t h0]
    unfold accFirst; (try dsimp only)
    by_cases hz : t.val = 0
    · rw [convDat_Phi_castSucc V c t, PhiS_zero V c _ _ hz, PhiA_eq]; unfold scopedWith
      iintro ⟨⟨⟨Ha, Hb, Hc, Hd, HS⟩, Hg⟩, Ho, ⟨%d0, H0⟩, ⟨%d1, H1⟩, ⟨%d2, H2⟩, ⟨%d3, H3⟩⟩
      iapply ((runFirst c (grid1.coords t) _ _ _ _ _ _ _ _ _ _ ((isFirst_iff t).mpr h0) hnl (convBlk V c 0 t) (convBlk V c 1 t) (convBlk V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Ha Hb Hc Hd]
      · isplitl [HS Ha Hb Hc Hd]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accFirst_cover V c t _ _)
        iexact Hg
      isplitl [Ho]; · iexact Ho
      isplitl [H0]; · iexact H0
      isplitl [H1]; · iexact H1
      isplitl [H2]; · iexact H2
      iexists _; iexact H3
    · rw [convDat_Phi_castSucc V c t, PhiS_pos V c _ _ hz]; unfold scopedWith
      iintro ⟨⟨⟨Ha, Hb, Hc, Hd, HS⟩, Hg⟩, Ho, ⟨%d0, H0⟩, ⟨%d1, H1⟩, ⟨%d2, H2⟩, ⟨%d3, H3⟩⟩
      iapply ((runFirst c (grid1.coords t) _ _ _ _ _ _ _ _ _ _ ((isFirst_iff t).mpr h0) hnl (convBlk V c 0 t) (convBlk V c 1 t) (convBlk V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg Ha Hb Hc Hd]
      · isplitl [HS Ha Hb Hc Hd]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accFirst_cover V c t _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · have hl : isLast (grid1.coords t) := (isLast_iff t).mpr h1
      rw [show (convDat V c).leavesExact 3 t = owns (c : Thread nD τ) (mO t) fullShare ((convDat V c).after 3 t) from by
        unfold Dat.leavesExact; rw [out_live t hl], convDat_after3]
      rw [convAt_last V c t h0 h1]
      unfold outLast accLast; (try dsimp only)
      rw [convDat_Phi_castSucc V c t, PhiS_pos V c _ _ hz]; unfold scopedWith
      iintro ⟨⟨⟨Ha, Hb, Hc, Hd, HS⟩, Hg⟩, Ho, ⟨%d0, H0⟩, ⟨%d1, H1⟩, ⟨%d2, H2⟩, ⟨%d3, H3⟩⟩
      iapply ((runLast c (grid1.coords t) _ _ _ _ _ _ _ _ _ _ (fun h => h0 ((isFirst_iff t).mp h)) hl (convBlk V c 0 t) (convBlk V c 1 t) (convBlk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Ha Hb Hc Hd]
      · isplitl [HS Ha Hb Hc Hd]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accLast_cover V c t _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover V c t _ _ _)
    · have hnl : ¬isLast (grid1.coords t) := fun h => h1 ((isLast_iff t).mp h)
      rw [Dat.leavesExact_idle (convDat V c) 3 t (out_idle t hnl) (out_noFlush t hnl)]
      rw [convAt_mid V c t h0 h1]
      unfold accMid; (try dsimp only)
      rw [convDat_Phi_castSucc V c t, PhiS_pos V c _ _ hz]; unfold scopedWith
      iintro ⟨⟨⟨Ha, Hb, Hc, Hd, HS⟩, Hg⟩, Ho, ⟨%d0, H0⟩, ⟨%d1, H1⟩, ⟨%d2, H2⟩, ⟨%d3, H3⟩⟩
      iapply ((runMid c (grid1.coords t) _ _ _ _ _ _ _ _ _ _ (fun h => h0 ((isFirst_iff t).mp h)) hnl (convBlk V c 0 t) (convBlk V c 1 t) (convBlk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Ha Hb Hc Hd]
      · isplitl [HS Ha Hb Hc Hd]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accMid_cover V c t _ _ _)
        iexact Hg
      isplitl [Ho]; · iexact Ho
      isplitl [H0]; · iexact H0
      isplitl [H1]; · iexact H1
      isplitl [H2]; · iexact H2
      iexists _; iexact H3

/-- The body obligation of the product pass, at every point. -/
theorem convObligation (c : Dev nD) : BodyObligation (convDat (F := F) V c) (defs₀ (F := F)) Variants.none () Set.univ := fun t => by
  rw [bigSep_W1, bigSep_W1]
  exact convBody_sound V c t

/-- What the launch hands the region is the invariant before the first point; after the last point the invariant
    gives it back, the accumulator's contents forgotten. -/
theorem conv_hin (c : Dev nD) : Pipeline.ΦA spec1 c ⊢ (convDat V c).Φ 0 := by
  rw [show (convDat V c).Φ 0 = PhiS V c 0 (Nat.zero_le _) from rfl, PhiS_zero V c 0 _ rfl]
  try exact Idealize.SL.BI.Entails.refl _

theorem conv_hout (c : Dev nD) : (convDat V c).Φ (Fin.last cfg1.N) ⊢ Pipeline.ΦA spec1 c := by
  rw [show (convDat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  unfold scopedWith
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Cert.Kernel.Conv

end
-- ==== Proof.KB.Run.lean ====
/-
  The whole program as a run: the projection on the host, the degree pass, the column scaling on the host, the
  product pass.

  Between two of these four items every unscoped buffer of the device is held at known contents: the launch
  memory; then the host operations' results folded in; then, after a device pass, the pass's arrays at what its
  copy-backs leave and every other buffer as the pass found it. Each device pass is entered from such a state and
  left at the next (its arrays split out of the held buffers and put back, the generator register lent to the
  pass's invariant and returned, nothing owed to another core); each host stretch maps one state to the next.
  Chaining the four and reading the last state against the final memory gives, for any reading of the floats:
  every execution terminates without a fault, and every unscoped buffer ends at the last state's contents. From
  that follow the frame claim (no item writes an argument array, so each ends as launched) and what the result
  array holds (the product pass's output array after its last copy-back).
-/
import proofs.«128527_j89799176225551_2_alg».proof.Proof.KB.DegPass
import proofs.«128527_j89799176225551_2_alg».proof.Proof.KB.ConvPass
import proofs.«128527_j89799176225551_2_alg».proof.Proof.Gen.Kernel.Regions

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the projection (the degree pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the degree pass: its arrays at what the pass leaves, the rest as entered. -/
def W2 (c : Dev nD) : Valuation τ sig (Elt F) :=
  Pipeline.withArrays spec0 c (W1 m ρ c) fun w => (degDat (V1 m ρ) c).arrAt w cfg0.N
theorem W2_arr (c : Dev nD) (w : Fin cfg0.W) :
    W2 m ρ c (Proc.devRef .tc (Pipeline.arrRef spec0 w)) = (degDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (degDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the column scaling (the product pass's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the product pass. -/
def W4 (c : Dev nD) : Valuation τ sig (Elt F) :=
  Pipeline.withArrays spec1 c (W3 m ρ c) fun w => (convDat (V3 m ρ) c).arrAt w cfg1.N
theorem W4_arr (c : Dev nD) (w : Fin cfg1.W) :
    W4 m ρ c (Proc.devRef .tc (Pipeline.arrRef spec1 w)) = (convDat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (convDat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The argument arrays end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide : (main_arg0 : Ref sig .tc) ∉ hostOps1_W)
    _ = W1 m ρ c (Proc.devRef .tc main_arg0) := W2_of_ne m ρ c main_arg0 (by decide)
    _ = W0 m ρ c (Proc.devRef .tc main_arg0) := StableHlo.after_of_writes_sub hostOps0 (W0 m ρ c) hostOps0_writes (by decide : (main_arg0 : Ref sig .tc) ∉ hostOps0_W)
    _ = m ((c : Thread nD τ).loc main_arg0) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 (W2 m ρ c) hostOps1_writes (by decide : (main_arg2 : Ref sig .tc) ∉ hostOps1_W)
    _ = W1 m ρ c (Proc.devRef .tc main_arg2) := W2_of_ne m ρ c main_arg2 (by decide)
    _ = W0 m ρ c (Proc.devRef .tc main_arg2) := StableHlo.after_of_writes_sub hostOps0 (W0 m ρ c) hostOps0_writes (by decide : (main_arg2 : Ref sig .tc) ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 (W2 m ρ c) hostOps1_writes (by decide : (main_arg3 : Ref sig .tc) ∉ hostOps1_W)
    _ = W1 m ρ c (Proc.devRef .tc main_arg3) := W2_of_ne m ρ c main_arg3 (by decide)
    _ = W0 m ρ c (Proc.devRef .tc main_arg3) := StableHlo.after_of_writes_sub hostOps0 (W0 m ρ c) hostOps0_writes (by decide : (main_arg3 : Ref sig .tc) ∉ hostOps0_W)
    _ = m ((c : Thread nD τ).loc main_arg3) := rfl

/-- The adjacency is an input window's array of both passes: each leaves it as it found it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((convDat (V3 m ρ) c).arrAt_in 0 rfl _).trans (convDat_A (V3 m ρ) c 0))
    _ = W2 m ρ c (Proc.devRef .tc main_arg1) := StableHlo.after_of_writes_sub hostOps1 (W2 m ρ c) hostOps1_writes (by decide : (main_arg1 : Ref sig .tc) ∉ hostOps1_W)
    _ = W1 m ρ c (Proc.devRef .tc main_arg1) := (W2_arr m ρ c 0).trans (((degDat (V1 m ρ) c).arrAt_in 0 rfl _).trans (degDat_A (V1 m ρ) c 0))
    _ = W0 m ρ c (Proc.devRef .tc main_arg1) := StableHlo.after_of_writes_sub hostOps0 (W0 m ρ c) hostOps0_writes (by decide : (main_arg1 : Ref sig .tc) ∉ hostOps0_W)
    _ = m ((c : Thread nD τ).loc main_arg1) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => degDat (V1 m ρ) c
  | ⟨1, _⟩ => fun c => convDat (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The device passes as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (degObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (convObligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from conv_hout (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every execution terminates without a fault, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim at any reading of the floats, with the result array's final contents beside it: the product
    pass's output array after its last copy-back. -/
theorem run_result : θ_run defs (onTc (τ := τ) (main (F := F))) ⟨m, fun _ => 0, ρ⟩ (fun r => ∀ c : Dev nD,
      r.2.mem ((c.tc : Thread nD τ).loc main_v8) = (convDat (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v8 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The frame claim. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Conv

end
-- ==== Proof.KI.DegPass.lean ====
/-
  The degree pass: the first of the layer's two device passes over the adjacency matrix.

  The pass walks the 8192 rows of the adjacency in 16 blocks of 512 rows. At block `t` it reads the 512 × 8192
  block of rows, sums each row, takes the square root, adds the overflow margin and inverts: the block's 512
  inverse square-root degrees, written as a 512 × 1 column. Nothing is carried from one block to the next and the
  body has one control path, so what the column's buffer holds after the body is one store's value of the block
  of rows, and the pass's proof data are: each array as the pass finds it, the input block left in place, the
  output block at that value.

  Everything here is stated at a parameter `V`, the contents of the device's buffers when the pass is entered,
  and for any reading of the floats.
-/
import proofs.«128527_j89799176225551_2_alg».proof.Proof.Gen.KernelIdeal.Launch
import proofs.«128527_j89799176225551_2_alg».proof.Proof.Gen.KernelIdeal.Skeleton
import proofs.«128527_j89799176225551_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w` of the degree pass, read off the window's array as the pass finds it. -/
def degBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds block `t` of the adjacency whenever the body runs at `t`: the block is fetched
    at every point and the body leaves it in place. -/
theorem degBefore_of {c : Dev nD} (dat : Dat τ (Elt F) Unit ℕ (UR sig nD τ) ℕ cfg0 c) (hA : dat.A 0 = V c (Pipeline.arrRef spec0 0))
    (hafter : ∀ t, dat.after 0 t = degBlk V c 0 t) (t : Fin cfg0.N) (d) : dat.before 0 t d = degBlk V c 0 t :=
  (dat.before_in_eq_fetched 0 rfl (fun _ => rfl) (fun _ _ _ => rfl) (fun t => by rw [hafter]; unfold Dat.blockOf degBlk; rw [hA]; try rfl) t d).trans
    (by unfold Dat.fetched Dat.blockOf degBlk; rw [hA]; try rfl)

/-- The whole 512 × 8192 block of rows, and the whole 512 × 1 column. -/
abbrev rowsRect : Rect S512x8192 := Rect.unit (s := S512x8192) ![0, 0] S512x8192.size inb_S512x8192_S512x8192_0_0
abbrev colRect : Rect S512x1 := Rect.unit (s := S512x1) ![0, 0] S512x1.size inb_S512x1_S512x1_0_0

/-- The column the body leaves: its one store, of the inverse square-root degrees of the block of rows. -/
def dinvCol (x0 : Vec F S512x8192 .f32) : Vec F S512x1 .f32 :=
  View.canon [⟨colRect, k0_pay1 (View.ld x0 rowsRect)⟩]

/-- The one store covers the column. -/
theorem dinvCol_cover (p0 : Vec F S512x1 .f32) (y : S512x1.Idx) :
    ∃ pc ∈ ([⟨colRect, p0⟩] : List (View.Piece (Elt F) S512x1 .f32)), y ∈ pc.1.set :=
  View.cover_of_tiled [⟨colRect, p0⟩] S512x1.size (by rfl) y

set_option maxHeartbeats 1000000 in
/-- The body on whole staging buffers, the rows' at `x0` and the column's at anything, runs to the end with the
    rows' as they were and the column's at `dinvCol x0`. -/
theorem degKernel_sound (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (dinvCol x0)) -∗ K ⟨⟩))
      ⊢ wp frame (wpE (defs₀ (F := F)) Variants.none c none) E (cc0__row_sum_kernel i arg1 harg1 arg2 harg2) K := by
  simp only [cc0__row_sum_kernel_eq_skeleton]; unfold cc0__row_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (dinvCol_cover _)

/-- The degree pass's proof data on core `c`. -/
def degDat (c : Dev nD) : Dat τ (Elt F) Unit ℕ (UR sig nD τ) ℕ cfg0 c where
  A w := V c (Pipeline.arrRef spec0 w)
  after w t := match w with
    | ⟨0, _⟩ => degBlk V c 0 t
    | ⟨1, _⟩ => dinvCol (degBlk V c 0 t)
  Φ _ := Pipeline.ΦA spec0 c
  q _ := fullShare
  owed _ := 0

theorem degDat_A (c : Dev nD) (w : Fin cfg0.W) : (degDat V c).A w = V c (Pipeline.arrRef spec0 w) := by
  dsimp only [degDat]
theorem degDat_after0 (c : Dev nD) (t : Fin cfg0.N) : (degDat V c).after 0 t = degBlk V c 0 t := by dsimp only [degDat]
theorem degDat_after1 (c : Dev nD) (t : Fin cfg0.N) : (degDat V c).after 1 t = dinvCol (degBlk V c 0 t) := by dsimp only [degDat]
theorem degDat_before0 (c : Dev nD) (t : Fin cfg0.N) (d) : (degDat V c).before 0 t d = degBlk V c 0 t :=
  degBefore_of V (degDat V c) (degDat_A V c 0) (degDat_after0 V c) t d

/-- What the body is called with at block `t`, and what it returns. -/
def degPre (c : Dev nD) (t : Fin cfg0.N) : sProp 𝕄 :=
  iprop((degDat V c).Φ t.castSucc ∗ (degDat V c).owesAt () t.castSucc
    ∗ (∃ d, owns (c : Thread nD τ) (st0_0 t) fullShare ((degDat V c).before 0 t d))
    ∗ (∃ d, owns (c : Thread nD τ) (st0_1 t) fullShare ((degDat V c).before 1 t d)))
def degPost (c : Dev nD) (t : Fin cfg0.N) : sProp 𝕄 :=
  iprop((degDat V c).Φ t.succ ∗ (degDat V c).owesAt () t.succ
    ∗ owns (c : Thread nD τ) (st0_0 t) fullShare ((degDat V c).after 0 t)
    ∗ owns (c : Thread nD τ) (st0_1 t) fullShare ((degDat V c).after 1 t))

theorem degBody_sound (c : Dev nD) (t : Fin cfg0.N) :
    degPre V c t ⊢ wp frame (wpE (defs₀ (F := F)) Variants.none c none) Set.univ (bodyAt0 t) (fun _ => degPost V c t) := by
  unfold degPre degPost bodyAt0
  simp only [degDat_before0]
  rw [show (degDat V c).Φ t.succ = (degDat V c).Φ t.castSucc from rfl,
    show (degDat V c).owesAt () t.succ = (degDat V c).owesAt () t.castSucc from rfl,
    degDat_after0, degDat_after1]
  iintro ⟨HΦ, Ho, ⟨%d0, H0⟩, ⟨%d1, H1⟩⟩
  iapply (degKernel_sound c Set.univ _ _ _ _ _ (degBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree pass, at every block. -/
theorem degObligation (c : Dev nD) : BodyObligation (degDat (F := F) V c) (defs₀ (F := F)) Variants.none () Set.univ := fun t => by
  rw [bigSep_W0, bigSep_W0]
  exact degBody_sound V c t

end Cert.KernelIdeal.Conv

end
-- ==== Proof.KI.ConvRuns.lean ====
/-
  The product pass: the second device pass over the adjacency matrix.

  The pass walks the adjacency in 4 × 8 blocks of 2048 rows by 1024 columns, row blocks outermost. The scaled
  projection (8192 × 128, in bf16) is held whole; the inverse square-root degrees come in as the 2048 × 1 column
  of the row block. Within a row block the 8 column steps accumulate, in a scratch buffer that outlives a step,
  the products of the adjacency block with the matching 1024 rows of the scaled projection: the first step
  clears the scratch and adds its product, the middle steps add theirs, and the last step adds its product and
  then writes the scratch, each row scaled by its inverse square-root degree, into the output block — the only
  step at which the output block is written, and the only one after which it is copied back.

  So a point of the grid is in one of three control paths, decided by its column step `t mod 8` (0, 1…6, 7).
  For each path the body's run is stated on any whole staging buffers; what the scratch and the output block
  hold after point `t` is then defined by recursion on `t` (`convAt`), the scratch of a middle or last step
  taken from the point before. The region's invariant carries the scratch at those contents between points.

  Everything is stated at a parameter `V`, the contents of the device's buffers when the pass is entered, and
  for any reading of the floats.
-/
import proofs.«128527_j89799176225551_2_alg».proof.Proof.Gen.KernelIdeal.Launch
import proofs.«128527_j89799176225551_2_alg».proof.Proof.Gen.KernelIdeal.Skeleton
import proofs.«128527_j89799176225551_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Block `t` of window `w` of the product pass, read off the window's array as the pass finds it. -/
def convBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not (an unfetched
    window's block index has not moved), given that the body leaves the block in place. -/
theorem convBefore0_of {c : Dev nD} (dat : Dat τ (Elt F) Unit ℕ (UR sig nD τ) ℕ cfg1 c) (hA : dat.A 0 = V c (Pipeline.arrRef spec1 0))
    (hafter : ∀ t, dat.after 0 t = convBlk V c 0 t) (t : Fin cfg1.N) (d) : dat.before 0 t d = convBlk V c 0 t :=
  (dat.before_in_eq_fetched 0 rfl (fun _ => rfl) (fun _ _ _ => rfl) (fun t => by rw [hafter]; unfold Dat.blockOf convBlk; rw [hA]; try rfl) t d).trans
    (by unfold Dat.fetched Dat.blockOf convBlk; rw [hA]; try rfl)
theorem convBefore1_of {c : Dev nD} (dat : Dat τ (Elt F) Unit ℕ (UR sig nD τ) ℕ cfg1 c) (hA : dat.A 1 = V c (Pipeline.arrRef spec1 1))
    (hafter : ∀ t, dat.after 1 t = convBlk V c 1 t) (t : Fin cfg1.N) (d) : dat.before 1 t d = convBlk V c 1 t :=
  (dat.before_in_eq_fetched 1 rfl (fun _ => rfl) (fun _ _ _ => rfl) (fun t => by rw [hafter]; unfold Dat.blockOf convBlk; rw [hA]; try rfl) t d).trans
    (by unfold Dat.fetched Dat.blockOf convBlk; rw [hA]; try rfl)
theorem convBefore2_of {c : Dev nD} (dat : Dat τ (Elt F) Unit ℕ (UR sig nD τ) ℕ cfg1 c) (hA : dat.A 2 = V c (Pipeline.arrRef spec1 2))
    (hafter : ∀ t, dat.after 2 t = convBlk V c 2 t) (t : Fin cfg1.N) (d) : dat.before 2 t d = convBlk V c 2 t :=
  (dat.before_in_eq_fetched 2 rfl (fun _ => rfl) (fun _ _ _ => rfl) (fun t => by rw [hafter]; unfold Dat.blockOf convBlk; rw [hA]; try rfl) t d).trans
    (by unfold Dat.fetched Dat.blockOf convBlk; rw [hA]; try rfl)

/-! ## The column step decides the control path -/

/-- The body's first branch: taken at the first column step of a row block. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)
/-- The body's second branch: taken at the last column step of a row block. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-- The input windows are live at every point; the output window is idle, and not copied back, except at a last
    column step. -/
theorem in_live0 : ∀ t : Fin cfg1.N, cfg1.idle 0 (grid1.coords t) = false := by decide +kernel
theorem in_live1 : ∀ t : Fin cfg1.N, cfg1.idle 1 (grid1.coords t) = false := by decide +kernel
theorem in_live2 : ∀ t : Fin cfg1.N, cfg1.idle 2 (grid1.coords t) = false := by decide +kernel
theorem out_idle : ∀ t : Fin cfg1.N, ¬isLast (grid1.coords t) → cfg1.idle 3 (grid1.coords t) = true := by decide +kernel
theorem out_noFlush : ∀ t : Fin cfg1.N, ¬isLast (grid1.coords t) → (cfg1.win 3).flush t = false := by decide +kernel
theorem out_live : ∀ t : Fin cfg1.N, isLast (grid1.coords t) → cfg1.idle 3 (grid1.coords t) = false := by decide +kernel

/-! ## The buffers the body is called on -/

abbrev mA (t : Fin cfg1.N) : Memref sig .tc .vmem S2048x1024 .f32 := win1_0.stage (cfg1.slots t 0)
abbrev hmA (t : Fin cfg1.N) : (mA t).IsWhole := hstage1_0 ((cfg1.slots t 0).cast nbuf1_0)
abbrev mX (t : Fin cfg1.N) : Memref sig .tc .vmem S8192x128 .bf16 := win1_1.stage (cfg1.slots t 1)
abbrev hmX (t : Fin cfg1.N) : (mX t).IsWhole := hstage1_1 ((cfg1.slots t 1).cast nbuf1_1)
abbrev mD (t : Fin cfg1.N) : Memref sig .tc .vmem S2048x1 .f32 := win1_2.stage (cfg1.slots t 2)
abbrev hmD (t : Fin cfg1.N) : (mD t).IsWhole := hstage1_2 ((cfg1.slots t 2).cast nbuf1_2)
abbrev mO (t : Fin cfg1.N) : Memref sig .tc .vmem S2048x128 .f32 := win1_3.stage (cfg1.slots t 3)
abbrev hmO (t : Fin cfg1.N) : (mO t).IsWhole := hstage1_3 ((cfg1.slots t 3).cast nbuf1_3)
/-- The accumulator: a whole scoped buffer of the kernel's own. -/
abbrev accM : Memref sig .tc .vmem S2048x128 .f32 := Memref.whole cc1_scratch0
/-- Views through which the accumulator's and the output block's contents are stated. -/
abbrev VS : View sig .tc .vmem S2048x128 .f32 := accM.view
abbrev VO : View sig .tc .vmem S2048x128 .f32 := (Memref.whole cc1_stg3_0 : Memref sig .tc .vmem S2048x128 .f32).view

/-- The scoped buffers that are no staging buffer of this pass — the degree pass's four staging buffers, each at
    some contents — beside a statement `S` about the accumulator. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S)

/-- The class's invariant with the accumulator as a memref owned at some contents. -/
theorem PhiA_eq (c : Dev nD) :
    (Pipeline.ΦA spec1 c : sProp 𝕄) = iprop(scopedWith c iprop(∃ d, owns (c : Thread nD τ) accM fullShare d) ∗ (∃ r, prngReg c r)) := by
  unfold Pipeline.ΦA scopedWith; rw [scopedRest1_eq]; simp only [accM, owns_whole]; try rfl

/-! ## The body's run, path by path -/

set_option maxHeartbeats 4000000 in
/-- FIRST column step. On whole staging buffers — the inputs' at their contents, the output block's at contents
    handed back untouched, the accumulator at anything — the body runs to the end with the inputs' as they were
    and the accumulator with the run's pieces written (the pieces are the witness the run finds). -/
noncomputable def runFirst (c : Dev nD) (i : grid1.Coords) (arg2 : Memref sig .tc .vmem S2048x1024 .f32) (harg2 : arg2.IsWhole) (arg3 : Memref sig .tc .vmem S8192x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : isFirst i) (hc1 : ¬isLast i)
    (x0 : Vec F S2048x1024 .f32) (x1 : Vec F S8192x128 .bf16) (x2 : Vec F S2048x1 .f32) :
    { LS : List (View.Piece (Elt F) S2048x128 .f32) //
      ∀ (xi : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- MIDDLE column step: as the first, the accumulator entering at the contents `xs` the point before left. -/
noncomputable def runMid (c : Dev nD) (i : grid1.Coords) (arg2 : Memref sig .tc .vmem S2048x1024 .f32) (harg2 : arg2.IsWhole) (arg3 : Memref sig .tc .vmem S8192x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬isFirst i) (hc1 : ¬isLast i)
    (x0 : Vec F S2048x1024 .f32) (x1 : Vec F S8192x128 .bf16) (x2 : Vec F S2048x1 .f32) (xs : Vec F S2048x128 .f32) :
    { LS : List (View.Piece (Elt F) S2048x128 .f32) //
      ∀ (xi : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- LAST column step: the accumulator enters at `xs`, the output block's buffer at anything; both leave with the
    run's pieces written. -/
noncomputable def runLast (c : Dev nD) (i : grid1.Coords) (arg2 : Memref sig .tc .vmem S2048x1024 .f32) (harg2 : arg2.IsWhole) (arg3 : Memref sig .tc .vmem S8192x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬isFirst i) (hc1 : isLast i)
    (x0 : Vec F S2048x1024 .f32) (x1 : Vec F S8192x128 .bf16) (x2 : Vec F S2048x1 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Conv

end
-- ==== Proof.KI.ConvPass.lean ====
/-
  The product pass, point by point.

  What the accumulator and the output block hold after point `t` (`convAt`, a pair: the output block, the
  accumulator), by recursion on `t`: at a first column step the accumulator is the run's pieces written over
  anything; at a middle or last step the pieces of a run entered with the accumulator the point before left;
  the output block is the last step's pieces, and a placeholder nobody reads elsewhere (the window is idle
  there: neither copied back nor read at the next point). The region's invariant `PhiS` is the class's before
  the first point and afterwards holds the accumulator at `convAt`'s second component, beside the other scoped
  buffers and the generator register. With the proof data (`convDat`) this gives the body obligation at every
  point, by cases on the column step.
-/
import proofs.«128527_j89799176225551_2_alg».proof.Proof.KI.ConvRuns

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each path leaves -/

/-- The accumulator after a first column step at point `t`. -/
def accFirst (c : Dev nD) (t : Fin cfg1.N) (h0 : isFirst (grid1.coords t)) (h1 : ¬isLast (grid1.coords t)) : Vec F S2048x128 .f32 :=
  VS.read (Elt F) (VS.writes (Elt F) VS.junk (runFirst c (grid1.coords t) (mA t) (hmA t) (mX t) (hmX t) (mD t) (hmD t) (mO t) (hmO t) accM (Memref.isWhole_whole _) h0 h1 (convBlk V c 0 t) (convBlk V c 1 t) (convBlk V c 2 t)).1)
theorem accFirst_cover (c : Dev nD) (t : Fin cfg1.N) (h0 : isFirst (grid1.coords t)) (h1 : ¬isLast (grid1.coords t)) (y : S2048x128.Idx) :
    ∃ pc ∈ (runFirst c (grid1.coords t) (mA t) (hmA t) (mX t) (hmX t) (mD t) (hmD t) (mO t) (hmO t) accM (Memref.isWhole_whole _) h0 h1 (convBlk V c 0 t) (convBlk V c 1 t) (convBlk V c 2 t)).1, y ∈ pc.1.set :=
  View.cover_of_tiledL (runFirst c (grid1.coords t) (mA t) (hmA t) (mX t) (hmX t) (mD t) (hmD t) (mO t) (hmO t) accM (Memref.isWhole_whole _) h0 h1 (convBlk V c 0 t) (convBlk V c 1 t) (convBlk V c 2 t)).1 S2048x128.size (by sl_kernel_rfl) y

/-- The accumulator after a middle column step at point `t` entered with the accumulator at `xs`. -/
def accMid (c : Dev nD) (t : Fin cfg1.N) (h0 : ¬isFirst (grid1.coords t)) (h1 : ¬isLast (grid1.coords t)) (xs : Vec F S2048x128 .f32) : Vec F S2048x128 .f32 :=
  VS.read (Elt F) (VS.writes (Elt F) VS.junk (runMid c (grid1.coords t) (mA t) (hmA t) (mX t) (hmX t) (mD t) (hmD t) (mO t) (hmO t) accM (Memref.isWhole_whole _) h0 h1 (convBlk V c 0 t) (convBlk V c 1 t) (convBlk V c 2 t) xs).1)
theorem accMid_cover (c : Dev nD) (t : Fin cfg1.N) (h0 : ¬isFirst (grid1.coords t)) (h1 : ¬isLast (grid1.coords t)) (xs : Vec F S2048x128 .f32) (y : S2048x128.Idx) :
    ∃ pc ∈ (runMid c (grid1.coords t) (mA t) (hmA t) (mX t) (hmX t) (mD t) (hmD t) (mO t) (hmO t) accM (Memref.isWhole_whole _) h0 h1 (convBlk V c 0 t) (convBlk V c 1 t) (convBlk V c 2 t) xs).1, y ∈ pc.1.set :=
  View.cover_of_tiledL (runMid c (grid1.coords t) (mA t) (hmA t) (mX t) (hmX t) (mD t) (hmD t) (mO t) (hmO t) accM (Memref.isWhole_whole _) h0 h1 (convBlk V c 0 t) (convBlk V c 1 t) (convBlk V c 2 t) xs).1 S2048x128.size (by sl_kernel_rfl) y

/-- The accumulator and the output block after a last column step at point `t` entered with the accumulator at `xs`. -/
def accLast (c : Dev nD) (t : Fin cfg1.N) (h0 : ¬isFirst (grid1.coords t)) (h1 : isLast (grid1.coords t)) (xs : Vec F S2048x128 .f32) : Vec F S2048x128 .f32 :=
  VS.read (Elt F) (VS.writes (Elt F) VS.junk (runLast c (grid1.coords t) (mA t) (hmA t) (mX t) (hmX t) (mD t) (hmD t) (mO t) (hmO t) accM (Memref.isWhole_whole _) h0 h1 (convBlk V c 0 t) (convBlk V c 1 t) (convBlk V c 2 t) xs).2.1)
theorem accLast_cover (c : Dev nD) (t : Fin cfg1.N) (h0 : ¬isFirst (grid1.coords t)) (h1 : isLast (grid1.coords t)) (xs : Vec F S2048x128 .f32) (y : S2048x128.Idx) :
    ∃ pc ∈ (runLast c (grid1.coords t) (mA t) (hmA t) (mX t) (hmX t) (mD t) (hmD t) (mO t) (hmO t) accM (Memref.isWhole_whole _) h0 h1 (convBlk V c 0 t) (convBlk V c 1 t) (convBlk V c 2 t) xs).2.1, y ∈ pc.1.set :=
  View.cover_of_tiledL (runLast c (grid1.coords t) (mA t) (hmA t) (mX t) (hmX t) (mD t) (hmD t) (mO t) (hmO t) accM (Memref.isWhole_whole _) h0 h1 (convBlk V c 0 t) (convBlk V c 1 t) (convBlk V c 2 t) xs).2.1 S2048x128.size (by sl_kernel_rfl) y
def outLast (c : Dev nD) (t : Fin cfg1.N) (h0 : ¬isFirst (grid1.coords t)) (h1 : isLast (grid1.coords t)) (xs : Vec F S2048x128 .f32) : Vec F S2048x128 .f32 :=
  VO.read (Elt F) (VO.writes (Elt F) VO.junk (runLast c (grid1.coords t) (mA t) (hmA t) (mX t) (hmX t) (mD t) (hmD t) (mO t) (hmO t) accM (Memref.isWhole_whole _) h0 h1 (convBlk V c 0 t) (convBlk V c 1 t) (convBlk V c 2 t) xs).1)
theorem outLast_cover (c : Dev nD) (t : Fin cfg1.N) (h0 : ¬isFirst (grid1.coords t)) (h1 : isLast (grid1.coords t)) (xs : Vec F S2048x128 .f32) (y : S2048x128.Idx) :
    ∃ pc ∈ (runLast c (grid1.coords t) (mA t) (hmA t) (mX t) (hmX t) (mD t) (hmD t) (mO t) (hmO t) accM (Memref.isWhole_whole _) h0 h1 (convBlk V c 0 t) (convBlk V c 1 t) (convBlk V c 2 t) xs).1, y ∈ pc.1.set :=
  View.cover_of_tiledL (runLast c (grid1.coords t) (mA t) (hmA t) (mX t) (hmX t) (mD t) (hmD t) (mO t) (hmO t) accM (Memref.isWhole_whole _) h0 h1 (convBlk V c 0 t) (convBlk V c 1 t) (convBlk V c 2 t) xs).1 S2048x128.size (by sl_kernel_rfl) y

/-- The output block where the window is idle: a placeholder nothing reads. -/
def outIdle : Vec F S2048x128 .f32 := VO.read (Elt F) (VO.writes (Elt F) VO.junk [])

/-! ## The accumulation over the points -/

/-- What the output block's buffer and the accumulator hold after the body at point `n`. -/
def convAt (c : Dev nD) : (n : ℕ) → n < cfg1.N → Vec F S2048x128 .f32 × Vec F S2048x128 .f32
  | 0, hn => (outIdle, accFirst V c ⟨0, hn⟩ ((isFirst_iff ⟨0, hn⟩).mpr (Nat.zero_mod _)) (fun h => (fun h' => by (try dsimp only at h'); omega) ((isLast_iff ⟨0, hn⟩).mp h)))
  | n + 1, hn =>
    if h0 : (n + 1) % 8 = 0 then
      (outIdle, accFirst V c ⟨n + 1, hn⟩ ((isFirst_iff ⟨n + 1, hn⟩).mpr h0) (fun h => (fun h' => by (try dsimp only at h'); omega) ((isLast_iff ⟨n + 1, hn⟩).mp h)))
    else if h1 : (n + 1) % 8 = 7 then
      (outLast V c ⟨n + 1, hn⟩ (fun h => h0 ((isFirst_iff ⟨n + 1, hn⟩).mp h)) ((isLast_iff ⟨n + 1, hn⟩).mpr h1) (convAt c n (Nat.lt_of_succ_lt hn)).2,
       accLast V c ⟨n + 1, hn⟩ (fun h => h0 ((isFirst_iff ⟨n + 1, hn⟩).mp h)) ((isLast_iff ⟨n + 1, hn⟩).mpr h1) (convAt c n (Nat.lt_of_succ_lt hn)).2)
    else
      (outIdle, accMid V c ⟨n + 1, hn⟩ (fun h => h0 ((isFirst_iff ⟨n + 1, hn⟩).mp h)) (fun h => h1 ((isLast_iff ⟨n + 1, hn⟩).mp h)) (convAt c n (Nat.lt_of_succ_lt hn)).2)

theorem convAt_first (c : Dev nD) (t : Fin cfg1.N) (h0 : t.val % 8 = 0) :
    convAt V c t.val t.isLt = (outIdle, accFirst V c t ((isFirst_iff t).mpr h0) (fun h => by have := (isLast_iff t).mp h; omega)) := by
  obtain ⟨n, hn⟩ := t
  cases n with
  | zero => exact rfl
  | succ n => exact (dif_pos h0).trans rfl

theorem convAt_mid (c : Dev nD) (t : Fin cfg1.N) (h0 : ¬t.val % 8 = 0) (h1 : ¬t.val % 8 = 7) :
    convAt V c t.val t.isLt = (outIdle, accMid V c t (fun h => h0 ((isFirst_iff t).mp h)) (fun h => h1 ((isLast_iff t).mp h)) (convAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem convAt_last (c : Dev nD) (t : Fin cfg1.N) (h0 : ¬t.val % 8 = 0) (h1 : t.val % 8 = 7) :
    convAt V c t.val t.isLt = (outLast V c t (fun h => h0 ((isFirst_iff t).mp h)) ((isLast_iff t).mpr h1) (convAt V c (t.val - 1) (Nat.lt_of_le_of_lt (Nat.sub_le _ _) t.isLt)).2,
      accLast V c t (fun h => h0 ((isFirst_iff t).mp h)) ((isLast_iff t).mpr h1) (convAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carrying the accumulator -/

def PhiS (c : Dev nD) : (n : ℕ) → n ≤ cfg1.N → sProp 𝕄
  | 0, _ => Pipeline.ΦA spec1 c
  | n + 1, hn => iprop(scopedWith c (owns (c : Thread nD τ) accM fullShare ((convAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) accM fullShare ((convAt V c n hn).2)) ∗ (∃ r, prngReg c r)) := rfl
theorem PhiS_pos (c : Dev nD) (n : ℕ) (h : n ≤ cfg1.N) (hz : n ≠ 0) :
    PhiS V c n h = iprop(scopedWith c (owns (c : Thread nD τ) accM fullShare ((convAt V c (n - 1) (by omega)).2)) ∗ (∃ r, prngReg c r)) := by
  cases n with
  | zero => exact absurd rfl hz
  | succ n => rfl

/-! ## The proof data -/

def convDat (c : Dev nD) : Dat τ (Elt F) Unit ℕ (UR sig nD τ) ℕ cfg1 c where
  A w := V c (Pipeline.arrRef spec1 w)
  after w t := match w with
    | ⟨0, _⟩ => convBlk V c 0 t
    | ⟨1, _⟩ => convBlk V c 1 t
    | ⟨2, _⟩ => convBlk V c 2 t
    | ⟨3, _⟩ => (convAt V c t.val t.isLt).1
  Φ t := PhiS V c t.val (Nat.le_of_lt_succ t.isLt)
  q _ := fullShare
  owed _ := 0

theorem convDat_A (c : Dev nD) (w : Fin cfg1.W) : (convDat V c).A w = V c (Pipeline.arrRef spec1 w) := by
  dsimp only [convDat]
theorem convDat_Phi_castSucc (c : Dev nD) (t : Fin cfg1.N) :
    (convDat V c).Φ t.castSucc = PhiS V c t.val (Nat.le_of_lt t.isLt) := by
  dsimp only [convDat]; simp only [Fin.coe_castSucc]
theorem convDat_after0 (c : Dev nD) (t : Fin cfg1.N) : (convDat V c).after 0 t = convBlk V c 0 t := by dsimp only [convDat]
theorem convDat_after1 (c : Dev nD) (t : Fin cfg1.N) : (convDat V c).after 1 t = convBlk V c 1 t := by dsimp only [convDat]
theorem convDat_after2 (c : Dev nD) (t : Fin cfg1.N) : (convDat V c).after 2 t = convBlk V c 2 t := by dsimp only [convDat]
theorem convDat_after3 (c : Dev nD) (t : Fin cfg1.N) : (convDat V c).after 3 t = (convAt V c t.val t.isLt).1 := by dsimp only [convDat]
theorem convDat_before0 (c : Dev nD) (t : Fin cfg1.N) (d) : (convDat V c).before 0 t d = convBlk V c 0 t :=
  convBefore0_of V (convDat V c) (convDat_A V c 0) (convDat_after0 V c) t d
theorem convDat_before1 (c : Dev nD) (t : Fin cfg1.N) (d) : (convDat V c).before 1 t d = convBlk V c 1 t :=
  convBefore1_of V (convDat V c) (convDat_A V c 1) (convDat_after1 V c) t d
theorem convDat_before2 (c : Dev nD) (t : Fin cfg1.N) (d) : (convDat V c).before 2 t d = convBlk V c 2 t :=
  convBefore2_of V (convDat V c) (convDat_A V c 2) (convDat_after2 V c) t d

/-! ## The body obligation -/

def convPre (c : Dev nD) (t : Fin cfg1.N) : sProp 𝕄 :=
  iprop((convDat V c).Φ t.castSucc ∗ (convDat V c).owesAt () t.castSucc
    ∗ (∃ d, owns (c : Thread nD τ) (mA t) fullShare ((convDat V c).before 0 t d))
    ∗ (∃ d, owns (c : Thread nD τ) (mX t) fullShare ((convDat V c).before 1 t d))
    ∗ (∃ d, owns (c : Thread nD τ) (mD t) fullShare ((convDat V c).before 2 t d))
    ∗ (∃ d, owns (c : Thread nD τ) (mO t) fullShare ((convDat V c).before 3 t d)))

def convPost (c : Dev nD) (t : Fin cfg1.N) : sProp 𝕄 :=
  iprop((convDat V c).Φ t.succ ∗ (convDat V c).owesAt () t.succ
    ∗ (convDat V c).leavesExact 0 t
    ∗ (convDat V c).leavesExact 1 t
    ∗ (convDat V c).leavesExact 2 t
    ∗ (convDat V c).leavesExact 3 t)

theorem leaves_in0 (c : Dev nD) (t : Fin cfg1.N) : (convDat V c).leavesExact 0 t = owns (c : Thread nD τ) (mA t) fullShare (convBlk V c 0 t) := by
  unfold Dat.leavesExact; rw [in_live0 t, convDat_after0]
theorem leaves_in1 (c : Dev nD) (t : Fin cfg1.N) : (convDat V c).leavesExact 1 t = owns (c : Thread nD τ) (mX t) fullShare (convBlk V c 1 t) := by
  unfold Dat.leavesExact; rw [in_live1 t, convDat_after1]
theorem leaves_in2 (c : Dev nD) (t : Fin cfg1.N) : (convDat V c).leavesExact 2 t = owns (c : Thread nD τ) (mD t) fullShare (convBlk V c 2 t) := by
  unfold Dat.leavesExact; rw [in_live2 t, convDat_after2]

set_option maxHeartbeats 4800000 in
theorem convBody_sound (c : Dev nD) (t : Fin cfg1.N) :
    convPre V c t ⊢ wp frame (wpE (defs₀ (F := F)) Variants.none c none) Set.univ (bodyAt1 t) (fun _ => convPost V c t) := by
  unfold convPre convPost bodyAt1
  simp only [convDat_before0, convDat_before1, convDat_before2]
  rw [show (convDat V c).owesAt () t.succ = (convDat V c).owesAt () t.castSucc from rfl]
  rw [show (convDat V c).Φ t.succ = PhiS V c (t.val + 1) t.isLt from rfl, PhiS_succ]
  rw [leaves_in0, leaves_in1, leaves_in2]
  have hN : t.val < 32 := lt_of_lt_of_eq t.isLt (show cfg1.N = 32 from N_1)
  by_cases h0 : t.val % 8 = 0
  · have hnl : ¬isLast (grid1.coords t) := fun h => by have := (isLast_iff t).mp h; omega
    rw [Dat.leavesExact_idle (convDat V c) 3 t (out_idle t hnl) (out_noFlush t hnl)]
    rw [convAt_first V c t h0]
    unfold accFirst; (try dsimp only)
    by_cases hz : t.val = 0
    · rw [convDat_Phi_castSucc V c t, PhiS_zero V c _ _ hz, PhiA_eq]; unfold scopedWith
      iintro ⟨⟨⟨Ha, Hb, Hc, Hd, HS⟩, Hg⟩, Ho, ⟨%d0, H0⟩, ⟨%d1, H1⟩, ⟨%d2, H2⟩, ⟨%d3, H3⟩⟩
      iapply ((runFirst c (grid1.coords t) _ _ _ _ _ _ _ _ _ _ ((isFirst_iff t).mpr h0) hnl (convBlk V c 0 t) (convBlk V c 1 t) (convBlk V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Ha Hb Hc Hd]
      · isplitl [HS Ha Hb Hc Hd]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accFirst_cover V c t _ _)
        iexact Hg
      isplitl [Ho]; · iexact Ho
      isplitl [H0]; · iexact H0
      isplitl [H1]; · iexact H1
      isplitl [H2]; · iexact H2
      iexists _; iexact H3
    · rw [convDat_Phi_castSucc V c t, PhiS_pos V c _ _ hz]; unfold scopedWith
      iintro ⟨⟨⟨Ha, Hb, Hc, Hd, HS⟩, Hg⟩, Ho, ⟨%d0, H0⟩, ⟨%d1, H1⟩, ⟨%d2, H2⟩, ⟨%d3, H3⟩⟩
      iapply ((runFirst c (grid1.coords t) _ _ _ _ _ _ _ _ _ _ ((isFirst_iff t).mpr h0) hnl (convBlk V c 0 t) (convBlk V c 1 t) (convBlk V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg Ha Hb Hc Hd]
      · isplitl [HS Ha Hb Hc Hd]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accFirst_cover V c t _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · have hl : isLast (grid1.coords t) := (isLast_iff t).mpr h1
      rw [show (convDat V c).leavesExact 3 t = owns (c : Thread nD τ) (mO t) fullShare ((convDat V c).after 3 t) from by
        unfold Dat.leavesExact; rw [out_live t hl], convDat_after3]
      rw [convAt_last V c t h0 h1]
      unfold outLast accLast; (try dsimp only)
      rw [convDat_Phi_castSucc V c t, PhiS_pos V c _ _ hz]; unfold scopedWith
      iintro ⟨⟨⟨Ha, Hb, Hc, Hd, HS⟩, Hg⟩, Ho, ⟨%d0, H0⟩, ⟨%d1, H1⟩, ⟨%d2, H2⟩, ⟨%d3, H3⟩⟩
      iapply ((runLast c (grid1.coords t) _ _ _ _ _ _ _ _ _ _ (fun h => h0 ((isFirst_iff t).mp h)) hl (convBlk V c 0 t) (convBlk V c 1 t) (convBlk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Ha Hb Hc Hd]
      · isplitl [HS Ha Hb Hc Hd]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accLast_cover V c t _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover V c t _ _ _)
    · have hnl : ¬isLast (grid1.coords t) := fun h => h1 ((isLast_iff t).mp h)
      rw [Dat.leavesExact_idle (convDat V c) 3 t (out_idle t hnl) (out_noFlush t hnl)]
      rw [convAt_mid V c t h0 h1]
      unfold accMid; (try dsimp only)
      rw [convDat_Phi_castSucc V c t, PhiS_pos V c _ _ hz]; unfold scopedWith
      iintro ⟨⟨⟨Ha, Hb, Hc, Hd, HS⟩, Hg⟩, Ho, ⟨%d0, H0⟩, ⟨%d1, H1⟩, ⟨%d2, H2⟩, ⟨%d3, H3⟩⟩
      iapply ((runMid c (grid1.coords t) _ _ _ _ _ _ _ _ _ _ (fun h => h0 ((isFirst_iff t).mp h)) hnl (convBlk V c 0 t) (convBlk V c 1 t) (convBlk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Ha Hb Hc Hd]
      · isplitl [HS Ha Hb Hc Hd]
        · isplitl [Ha]; · iexact Ha
          isplitl [Hb]; · iexact Hb
          isplitl [Hc]; · iexact Hc
          isplitl [Hd]; · iexact Hd
          unfold owns; iexists _; isplitr
          swap; · iexact HS
          ipureintro; exact View.read_writes_of_cover _ _ _ _ _ (accMid_cover V c t _ _ _)
        iexact Hg
      isplitl [Ho]; · iexact Ho
      isplitl [H0]; · iexact H0
      isplitl [H1]; · iexact H1
      isplitl [H2]; · iexact H2
      iexists _; iexact H3

/-- The body obligation of the product pass, at every point. -/
theorem convObligation (c : Dev nD) : BodyObligation (convDat (F := F) V c) (defs₀ (F := F)) Variants.none () Set.univ := fun t => by
  rw [bigSep_W1, bigSep_W1]
  exact convBody_sound V c t

/-- What the launch hands the region is the invariant before the first point; after the last point the invariant
    gives it back, the accumulator's contents forgotten. -/
theorem conv_hin (c : Dev nD) : Pipeline.ΦA spec1 c ⊢ (convDat V c).Φ 0 := by
  rw [show (convDat V c).Φ 0 = PhiS V c 0 (Nat.zero_le _) from rfl, PhiS_zero V c 0 _ rfl]
  try exact Idealize.SL.BI.Entails.refl _

theorem conv_hout (c : Dev nD) : (convDat V c).Φ (Fin.last cfg1.N) ⊢ Pipeline.ΦA spec1 c := by
  rw [show (convDat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  unfold scopedWith
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Cert.KernelIdeal.Conv

end
-- ==== Proof.KI.Run.lean ====
/-
  The whole program as a run: the projection on the host, the degree pass, the column scaling on the host, the
  product pass.

  Between two of these four items every unscoped buffer of the device is held at known contents: the launch
  memory; then the host operations' results folded in; then, after a device pass, the pass's arrays at what its
  copy-backs leave and every other buffer as the pass found it. Each device pass is entered from such a state and
  left at the next (its arrays split out of the held buffers and put back, the generator register lent to the
  pass's invariant and returned, nothing owed to another core); each host stretch maps one state to the next.
  Chaining the four and reading the last state against the final memory gives, for any reading of the floats:
  every execution terminates without a fault, and every unscoped buffer ends at the last state's contents. From
  that follow the frame claim (no item writes an argument array, so each ends as launched) and what the result
  array holds (the product pass's output array after its last copy-back).
-/
import proofs.«128527_j89799176225551_2_alg».proof.Proof.KI.DegPass
import proofs.«128527_j89799176225551_2_alg».proof.Proof.KI.ConvPass
import proofs.«128527_j89799176225551_2_alg».proof.Proof.Gen.KernelIdeal.Regions

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the projection (the degree pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the degree pass: its arrays at what the pass leaves, the rest as entered. -/
def W2 (c : Dev nD) : Valuation τ sig (Elt F) :=
  Pipeline.withArrays spec0 c (W1 m ρ c) fun w => (degDat (V1 m ρ) c).arrAt w cfg0.N
theorem W2_arr (c : Dev nD) (w : Fin cfg0.W) :
    W2 m ρ c (Proc.devRef .tc (Pipeline.arrRef spec0 w)) = (degDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (degDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the column scaling (the product pass's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the product pass. -/
def W4 (c : Dev nD) : Valuation τ sig (Elt F) :=
  Pipeline.withArrays spec1 c (W3 m ρ c) fun w => (convDat (V3 m ρ) c).arrAt w cfg1.N
theorem W4_arr (c : Dev nD) (w : Fin cfg1.W) :
    W4 m ρ c (Proc.devRef .tc (Pipeline.arrRef spec1 w)) = (convDat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (convDat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The argument arrays end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide : (main_arg0 : Ref sig .tc) ∉ hostOps1_W)
    _ = W1 m ρ c (Proc.devRef .tc main_arg0) := W2_of_ne m ρ c main_arg0 (by decide)
    _ = W0 m ρ c (Proc.devRef .tc main_arg0) := StableHlo.after_of_writes_sub hostOps0 (W0 m ρ c) hostOps0_writes (by decide : (main_arg0 : Ref sig .tc) ∉ hostOps0_W)
    _ = m ((c : Thread nD τ).loc main_arg0) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 (W2 m ρ c) hostOps1_writes (by decide : (main_arg2 : Ref sig .tc) ∉ hostOps1_W)
    _ = W1 m ρ c (Proc.devRef .tc main_arg2) := W2_of_ne m ρ c main_arg2 (by decide)
    _ = W0 m ρ c (Proc.devRef .tc main_arg2) := StableHlo.after_of_writes_sub hostOps0 (W0 m ρ c) hostOps0_writes (by decide : (main_arg2 : Ref sig .tc) ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 (W2 m ρ c) hostOps1_writes (by decide : (main_arg3 : Ref sig .tc) ∉ hostOps1_W)
    _ = W1 m ρ c (Proc.devRef .tc main_arg3) := W2_of_ne m ρ c main_arg3 (by decide)
    _ = W0 m ρ c (Proc.devRef .tc main_arg3) := StableHlo.after_of_writes_sub hostOps0 (W0 m ρ c) hostOps0_writes (by decide : (main_arg3 : Ref sig .tc) ∉ hostOps0_W)
    _ = m ((c : Thread nD τ).loc main_arg3) := rfl

/-- The adjacency is an input window's array of both passes: each leaves it as it found it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((convDat (V3 m ρ) c).arrAt_in 0 rfl _).trans (convDat_A (V3 m ρ) c 0))
    _ = W2 m ρ c (Proc.devRef .tc main_arg1) := StableHlo.after_of_writes_sub hostOps1 (W2 m ρ c) hostOps1_writes (by decide : (main_arg1 : Ref sig .tc) ∉ hostOps1_W)
    _ = W1 m ρ c (Proc.devRef .tc main_arg1) := (W2_arr m ρ c 0).trans (((degDat (V1 m ρ) c).arrAt_in 0 rfl _).trans (degDat_A (V1 m ρ) c 0))
    _ = W0 m ρ c (Proc.devRef .tc main_arg1) := StableHlo.after_of_writes_sub hostOps0 (W0 m ρ c) hostOps0_writes (by decide : (main_arg1 : Ref sig .tc) ∉ hostOps0_W)
    _ = m ((c : Thread nD τ).loc main_arg1) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => degDat (V1 m ρ) c
  | ⟨1, _⟩ => fun c => convDat (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The device passes as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (degObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (convObligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from conv_hout (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every execution terminates without a fault, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim at any reading of the floats, with the result array's final contents beside it: the product
    pass's output array after its last copy-back. -/
theorem run_result : θ_run defs (onTc (τ := τ) (main (F := F))) ⟨m, fun _ => 0, ρ⟩ (fun r => ∀ c : Dev nD,
      r.2.mem ((c.tc : Thread nD τ).loc main_v8) = (convDat (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v8 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The frame claim. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Conv

end
-- ==== Proof.Spec.lean ====
/-
  The mathematics of the graph-convolution layer, over the extended reals, with no program in sight.

  For node features `X` (8192 × 128), a dense adjacency `A` (8192 × 8192), weights `W` (128 × 128) and a bias `b`:
  * `proj X W b j o`   = (∑ d, X[j,d] · W[d,o]) + b[o]              the dense projection of node j;
  * `deg A i`          = ∑ j, A[i,j]                                 the degree of node i;
  * `dinv A i`         = 1 / (√(deg A i) + ε)                        the inverse square-root degree, ε the f32 word 0x322BCC77;
  * `outScaled`        = (∑ j, A[i,j] · (proj j o · dinv j)) · dinv i   — columns scaled before the product, rows after;
  * `outLaplacian`     = ∑ j, ((A[i,j] · dinv i) · dinv j) · proj j o   — the normalised Laplacian times the projection.
  The two outputs agree whenever every entry of X, A, W, b is a real number: then `dinv` is a real number too
  (the square root of a negative degree reads ⊥, and 1 / ⊥ = 0), and a real factor moves across a finite sum.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![8192, 128]⟩
abbrev SA : Shape := ⟨2, ![8192, 8192]⟩
abbrev SW : Shape := ⟨2, ![128, 128]⟩
abbrev Sb : Shape := ⟨1, ![128]⟩

/-- The overflow margin ε: the f32 word both programs carry. -/
def margin : EReal := Ideal.ofBits .f32 0x322BCC77#32
/-- The numerator 1: the f32 word both programs carry. -/
def one : EReal := Ideal.ofBits .f32 0x3F800000#32

/-- The dense projection of node `j`, output feature `o`. -/
def proj (X : SX.Idx → EReal) (W : SW.Idx → EReal) (b : Sb.Idx → EReal) (j : Fin 8192) (o : Fin 128) : EReal :=
  (∑ d : Fin 128, X (ix2 j d) * W (ix2 d o)) + b (ix1 o)

/-- The degree of node `i`: its row sum. -/
def deg (A : SA.Idx → EReal) (i : Fin 8192) : EReal := ∑ j : Fin 8192, A (ix2 i j)

/-- The inverse square-root degree with the overflow margin. -/
def dinv (A : SA.Idx → EReal) (i : Fin 8192) : EReal := Ideal.div one (Ideal.sqrt (deg A i) + margin)

/-- Columns scaled before the product, rows after it. -/
def outScaled (X : SX.Idx → EReal) (A : SA.Idx → EReal) (W : SW.Idx → EReal) (b : Sb.Idx → EReal) (i : Fin 8192) (o : Fin 128) : EReal :=
  (∑ j : Fin 8192, A (ix2 i j) * (proj X W b j o * dinv A j)) * dinv A i

/-- The normalised Laplacian times the projection. -/
def outLaplacian (X : SX.Idx → EReal) (A : SA.Idx → EReal) (W : SW.Idx → EReal) (b : Sb.Idx → EReal) (i : Fin 8192) (o : Fin 128) : EReal :=
  ∑ j : Fin 8192, ((A (ix2 i j) * dinv A i) * dinv A j) * proj X W b j o

/-- Every entry is a real number. -/
def Finite {s : Shape} (f : s.Idx → EReal) : Prop := ∀ i, ∃ r : ℝ, f i = (r : EReal)

end Cert.Spec

end
-- ==== Proof.KI.Payloads.lean ====
/-
  The kernels' pure values, read at an index, over the extended reals.

  * The row-sum kernel's value at row r: the sum of the block's row r (the reduction's zero start vanishes), viewed as a
    column, then 1 / (√sum + ε) with the two constant words broadcast.
  * The accumulating kernel's start value: the zero word everywhere.
  * Its step at (r, o): the running value plus the contraction over the 1024 positions j of the block of the adjacency tile at
    (r, j) times the scaled-feature tile at (j, o); the product's zero start vanishes, the narrowing of the left factor is the
    identity on extended reals, and the casts to the same shape are identities.
  * Its last value at (r, o): the accumulated value times the row's scale, a one-column array broadcast along the columns.
  Two layout facts are used: a vector of length a viewed as an [a, 1] column reads entry i at (i, ·), and an [a, 1] column
  broadcast to [a, b] reads row p's one entry at (p, ·); both are row-major index arithmetic.
-/
import proofs.«128527_j89799176225551_2_alg».proof.Proof.Gen.KernelIdeal.Skeleton
import proofs.«128527_j89799176225551_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Conv

open Cert.KernelIdeal Cert.KernelIdeal.Gen Idealize.ShloMosaic Idealize.ShloMosaic.ValueIdx

/-! ## Two column layouts read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row-sum kernel -/

/-- The row reduction from the zero word, at row `r`, is the sum of the row. -/
theorem rowSum_apply (v0 : Vec Ideal S512x8192 .f32) (r : Fin 512) :
    (multiReduction (F := Ideal) .add [1] S512 v0 0x00000000#32 reduces_S512x8192_S512 (.inl rfl) rfl) (ix1 r)
      = ∑ j : Fin 8192, v0 (ix2 r j) := by
  refine (Ideal.multiReduction_add_single (φ := .f32) v0 0x00000000#32 reduces_S512x8192_S512 (.inl rfl) rfl (ix1 r)).trans ?_
  exact Finset.sum_congr rfl fun k _ => congrArg v0 (funext fun a => Fin.ext (by
    match a with
    | ⟨0, _⟩ => rfl
    | ⟨1, _⟩ => rfl))

/-- The row-sum kernel writes, at row `r`, one over (the square root of the row's sum plus the margin). -/
theorem pay_dinv (v0 : Vec Ideal S512x8192 .f32) (r : Fin 512) :
    k0_pay1 (F := Ideal) v0 (ix2 r (0 : Fin 1))
      = Ideal.div Cert.Spec.one (Ideal.sqrt (∑ j : Fin 8192, v0 (ix2 r j)) + Cert.Spec.margin) := by
  have hc : shapeCast S512x1 (multiReduction (F := Ideal) .add [1] S512 v0 0x00000000#32 reduces_S512x8192_S512 (.inl rfl) rfl)
      shapeCasts_S512_S512x1 (ix2 r (0 : Fin 1)) = ∑ j : Fin 8192, v0 (ix2 r j) :=
    (shapeCast_a_a1_apply _ _ r 0).trans (rowSum_apply v0 r)
  show Ideal.div (Ideal.ofBits .f32 0x3F800000#32)
      (Ideal.sqrt (shapeCast S512x1 (multiReduction (F := Ideal) .add [1] S512 v0 0x00000000#32 reduces_S512x8192_S512 (.inl rfl) rfl)
        shapeCasts_S512_S512x1 (ix2 r (0 : Fin 1))) + Ideal.ofBits .f32 0x322BCC77#32) = _
  rw [hc]
  rfl

/-! ## The accumulating kernel -/

/-- The start value is zero everywhere. -/
theorem pay_zero (r : Fin 2048) (o : Fin 128) : k1_pay1 (F := Ideal) (ix2 r o) = 0 := by
  show shapeCast S2048x128 (broadcast S2048x128 (Ideal.ofBits .f32 0x00000000#32)) shapeCasts_S2048x128_S2048x128 (ix2 r o) = 0
  rw [shapeCast_self]
  exact Ideal.ofBits_zero_f32

theorem lhs_acc_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide),
    dif_pos (show (0 : Fin S2048x1024.rank) ∈ dot_S2048x1024_S1024x128_S2048x128_1_0_0_1_n_n.lhsNonContracting by decide)]
  rfl
theorem lhs_acc_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_acc_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_acc_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide),
    dif_pos (show (1 : Fin S1024x128.rank) ∈ dot_S2048x1024_S1024x128_S2048x128_1_0_0_1_n_n.rhsNonContracting by decide)]
  rfl

/-- The block product from the zero start, at `(r, o)`, is the contraction over the 1024 positions. -/
theorem blockProduct_apply (l : FVec Ideal S2048x1024 .bf16) (w : FVec Ideal S1024x128 .bf16) (r : Fin 2048) (o : Fin 128) :
    matmul (F := Ideal) dot_S2048x1024_S1024x128_S2048x128_1_0_0_1_n_n none l w (constant S2048x128 .f32 0x00000000#32) (ix2 r o)
      = ∑ j : Fin 1024, l (ix2 r j) * w (ix2 j o) := by
  show FloatOps.matmul dot_S2048x1024_S1024x128_S2048x128_1_0_0_1_n_n none l w (constant S2048x128 .f32 0x00000000#32) (ix2 r o) = _
  rw [Ideal.matmul_constant_zero_apply,
    ← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 r o)
      ((ValueIdx.contrEquiv1 dot_S2048x1024_S1024x128_S2048x128_1_0_0_1_n_n 1024 rfl rfl).symm k) = ix2 r k :=
    funext fun a => Fin.ext (by
      match a with
      | ⟨0, _⟩ => exact lhs_acc_0 _ _
      | ⟨1, _⟩ => exact (lhs_acc_1 _ _).trans hk)
  have er : dot_S2048x1024_S1024x128_S2048x128_1_0_0_1_n_n.rhsIdx (ix2 r o)
      ((ValueIdx.contrEquiv1 dot_S2048x1024_S1024x128_S2048x128_1_0_0_1_n_n 1024 rfl rfl).symm k) = ix2 k o :=
    funext fun a => Fin.ext (by
      match a with
      | ⟨0, _⟩ => exact (rhs_acc_0 _ _).trans hk
      | ⟨1, _⟩ => exact rhs_acc_1 _ _)
  rw [el, er]

/-- One step: the running value plus the block's contraction. -/
theorem pay_acc (v3 : Vec Ideal S2048x1024 .f32) (v8 : Vec Ideal S1024x128 .bf16) (v10 : Vec Ideal S2048x128 .f32)
    (r : Fin 2048) (o : Fin 128) :
    k1_pay2 (F := Ideal) v3 v8 v10 (ix2 r o) = v10 (ix2 r o) + ∑ j : Fin 1024, v3 (ix2 r j) * v8 (ix2 j o) := by
  show shapeCast S2048x128 (addf v10 (matmul (F := Ideal) dot_S2048x1024_S1024x128_S2048x128_1_0_0_1_n_n none
      (truncf .bf16 v3 bitsLt_bf16_f32) (shapeCast S1024x128 v8 shapeCasts_S1024x128_S1024x128)
      (constant S2048x128 .f32 0x00000000#32))) shapeCasts_S2048x128_S2048x128 (ix2 r o) = _
  rw [shapeCast_self, shapeCast_self, addf_apply, blockProduct_apply]
  rfl

/-- The last value: the accumulated value times the row's scale. -/
theorem pay_scale (v19 : Vec Ideal S2048x128 .f32) (v20 : Vec Ideal S2048x1 .f32) (r : Fin 2048) (o : Fin 128) :
    k1_pay3 (F := Ideal) v19 v20 (ix2 r o) = v19 (ix2 r o) * v20 (ix2 r (0 : Fin 1)) := by
  show v19 (ix2 r o) * broadcastTo S2048x128 (shapeCast S2048x1 v20 shapeCasts_S2048x1_S2048x1) broadcasts_S2048x1_S2048x128 (ix2 r o) = _
  rw [shapeCast_self, broadcastTo_a1_ab_apply]

end Cert.KernelIdeal.Conv

end
-- ==== Proof.KI.Arrays.lean ====
/-
  The two device passes' results as whole-array functions.

  `dinvArr A` is the 8192 × 1 column of inverse square-root degrees of an adjacency `A`. `convOut A X D` is the
  8192 × 128 array whose entry (i, o) is the full contraction of row `i` of `A` with column `o` of `X`, scaled
  by entry `i` of the column `D`.
-/
import proofs.«128527_j89799176225551_2_alg».proof.Proof.Gen.KernelIdeal
import proofs.«128527_j89799176225551_2_alg».proof.Proof.Spec

noncomputable section

namespace Cert.KernelIdeal.Conv

open Cert.KernelIdeal Idealize.ShloMosaic Idealize.ShloMosaic.ValueIdx
open scoped BigOperators

/-- The column of inverse square-root degrees of an adjacency matrix. -/
def dinvArr (A : S8192x8192.Idx → EReal) : S8192x1.Idx → EReal := fun i => Cert.Spec.dinv A ⟨(i 0).val, idx2_lt0 i⟩

/-- Row `i` of `A` contracted with column `o` of `X`, scaled by entry `i` of `D`. -/
def convOut (A : S8192x8192.Idx → EReal) (X : S8192x128.Idx → EReal) (D : S8192x1.Idx → EReal) : S8192x128.Idx → EReal :=
  fun i => (∑ k : Fin 8192, A (ix2 (⟨(i 0).val, idx2_lt0 i⟩ : Fin 8192) k) * X (ix2 k (⟨(i 1).val, idx2_lt1 i⟩ : Fin 128))) * D (ix2 (⟨(i 0).val, idx2_lt0 i⟩ : Fin 8192) (0 : Fin 1))

theorem dinvArr_apply (A : S8192x8192.Idx → EReal) (i : Fin 8192) (q : Fin 1) : dinvArr A (ix2 i q) = Cert.Spec.dinv A i := rfl

theorem convOut_apply (A : S8192x8192.Idx → EReal) (X : S8192x128.Idx → EReal) (D : S8192x1.Idx → EReal) (i : Fin 8192) (o : Fin 128) :
    convOut A X D (ix2 i o) = (∑ k : Fin 8192, A (ix2 i k) * X (ix2 k o)) * D (ix2 i (0 : Fin 1)) := rfl

end Cert.KernelIdeal.Conv

end
-- ==== Proof.KI.DegValue.lean ====
/-
  What the degree pass leaves in its output array, at the ideal reading of the floats.

  Block `t` of the pass (512 rows) writes back a 512 × 1 column whose entry `r` is the inverse square-root
  degree of row `512 t + r` of the adjacency: the body sums the row of its block, and the block's row `r` is the
  array's row `512 t + r`. The 16 blocks tile the 8192 × 1 array (row `i` is in block `i / 512`), and every
  block is copied back, so after the pass the array holds the inverse square-root degree of every row.
-/
import proofs.«128527_j89799176225551_2_alg».proof.Proof.KI.DegPass
import proofs.«128527_j89799176225551_2_alg».proof.Proof.KI.Payloads
import proofs.«128527_j89799176225551_2_alg».proof.Proof.KI.Arrays
import Idealize.ShloMosaic.Lib.Pipeline.Value

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

theorem zero2' : (![0, 0] : Fin 2 → Nat) = fun _ => 0 := funext fun a => by fin_cases a <;> rfl

/-- Where block `t` of each window sits: block row `t`, block column 0. -/
theorem deg_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of block `t` is row `512 t + r` of the array. -/
def degRow (t : Fin cfg0.N) (r : Fin 512) : Fin 8192 :=
  ⟨t.val * 512 + r.val, by have h := lt_of_lt_of_eq t.isLt (show cfg0.N = 16 from N_0); have := r.isLt; omega⟩

theorem degRows_read (c : Dev nD) (t : Fin cfg0.N) (r : Fin 512) (j : Fin 8192) :
    degBlk V c 0 t (ix2 r j) = V c main_arg1 (ix2 (degRow t r) j) := by
  obtain ⟨e0, e1, -, -⟩ := deg_idx t
  show V c main_arg1 (((cfg0.win 0).blk t).view.emb (ix2 r j)) = _
  refine congrArg _ ?_
  funext a; apply Fin.ext
  match a with
  | ⟨0, _⟩ => show win0_0.index t (0 : Fin 2) * 512 + 1 * r.val = t.val * 512 + r.val; omega
  | ⟨1, _⟩ => show win0_0.index t (1 : Fin 2) * 8192 + 1 * j.val = j.val; omega

/-- What block `t` writes back is block `t` of the column of inverse square-root degrees. -/
theorem deg_flushed (c : Dev nD) (t : Fin cfg0.N) :
    (degDat V c).flushed 1 t = ((cfg0.win 1).blk t).view.read (Elt Ideal) (dinvArr (V c main_arg1)) := by
  show (cfg0.win 1).cut (grid0.coords t) ((degDat V c).after 1 t) = _
  rw [degDat_after1]
  unfold dinvCol
  rw [View.canon_unit_zero zero2']
  simp only [View.ld_unit_zero (S := S512x8192) zero2']
  obtain ⟨-, -, e2, e3⟩ := deg_idx t
  funext y
  obtain ⟨r, q, rfl⟩ : ∃ (r : Fin 512) (q : Fin 1), y = ix2 r q := ⟨y 0, y 1, eq_ix2 y⟩
  obtain rfl : q = 0 := Subsingleton.elim _ _
  show k0_pay1 (F := Ideal) (degBlk V c 0 t) (ix2 r (0 : Fin 1)) = dinvArr (V c main_arg1) (((cfg0.win 1).blk t).view.emb (ix2 r (0 : Fin 1)))
  refine (pay_dinv (degBlk V c 0 t) r).trans ?_
  have hemb : ((cfg0.win 1).blk t).view.emb (ix2 r (0 : Fin 1)) = ix2 (degRow t r) (0 : Fin 1) := by
    funext a; apply Fin.ext
    match a with
    | ⟨0, _⟩ => show win0_1.index t (0 : Fin 2) * 512 + 1 * r.val = t.val * 512 + r.val; omega
    | ⟨1, _⟩ => show win0_1.index t (1 : Fin 2) * 1 + 1 * 0 = 0; omega
  rw [hemb]
  unfold dinvArr Cert.Spec.dinv Cert.Spec.deg
  simp only [degRows_read]

theorem deg_mem_blk (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v4).slice (win0_1.rect t)).set ↔ _
  rw [View.set_slice_whole, Rect.mem_set_unit]
  exact Iff.rfl

/-- Every row of the array is in the block of some point, and every point copies its block back. -/
theorem deg_cover (i : S8192x1.Idx) : ∃ t : Fin cfg0.N, (cfg0.win 1).flush t = true ∧ i ∈ ((cfg0.win 1).blk t).view.set := by
  have hi0 : (i 0).val < 8192 := idx2_lt0 i
  have hi1 : (i 1).val < 1 := idx2_lt1 i
  have hN : cfg0.N = 16 := N_0
  have ht : (i 0).val / 512 < cfg0.N := by rw [hN]; omega
  obtain ⟨-, -, e2, e3⟩ := deg_idx ⟨(i 0).val / 512, ht⟩
  refine ⟨⟨(i 0).val / 512, ht⟩, flush0_1 _, ?_⟩
  rw [deg_mem_blk]
  intro a
  match a with
  | ⟨0, _⟩ =>
    show win0_1.index ⟨(i 0).val / 512, ht⟩ (0 : Fin 2) * 512 ≤ (i 0).val ∧ (i 0).val < win0_1.index ⟨(i 0).val / 512, ht⟩ (0 : Fin 2) * 512 + 512
    have : (⟨(i 0).val / 512, ht⟩ : Fin cfg0.N).val = (i 0).val / 512 := rfl
    omega
  | ⟨1, _⟩ =>
    show win0_1.index ⟨(i 0).val / 512, ht⟩ (1 : Fin 2) * 1 ≤ (i 1).val ∧ (i 1).val < win0_1.index ⟨(i 0).val / 512, ht⟩ (1 : Fin 2) * 1 + 1
    omega

/-- After the degree pass its output array is the column of inverse square-root degrees of the adjacency. -/
theorem deg_final (c : Dev nD) : (degDat V c).arrAt 1 cfg0.N = dinvArr (V c main_arg1) :=
  (degDat V c).arrAt_eq_of_cover 1 _ (fun t _ => deg_flushed V c t) deg_cover

end Cert.KernelIdeal.Conv

end
-- ==== Proof.KI.ConvPieces.lean ====
/-
  What each control path of the product pass leaves, as the body's arithmetic.

  The runs found the accumulator's and the output block's contents as lists of stores. Read back, each is one
  payload of the blocks the point is handed: the accumulator after a column step is the incoming accumulator
  (zeros, at a first step) plus the product of the adjacency block with the 1024 rows of the scaled projection
  that match the step's columns; the output block after a last step is that accumulator with each row scaled
  by its inverse square-root degree. For any reading of the floats.
-/
import proofs.«128527_j89799176225551_2_alg».proof.Proof.KI.ConvPass
import Idealize.ShloMosaic.Lib.Pipeline.Value

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero2 : (![0, 0] : Fin 2 → Nat) = fun _ => 0 := funext fun a => by fin_cases a <;> rfl

/-- The 1024 rows of the scaled projection that the column step of point `t` multiplies with. -/
def xRows (t : Fin cfg1.N) (x1 : Vec F S8192x128 .bf16) : Vec F S1024x128 .bf16 :=
  View.ld x1 (Rect.unit (s := S8192x128) (k1_off1 (grid1.coords t)) S1024x128.size (k1_off1_inb (grid1.coords t)))

/-- The accumulator read whole at contents `xs` is `xs`. -/
theorem acc_read_unread (xs : Vec F S2048x128 .f32) (h : (accM : Memref sig .tc .vmem S2048x128 .f32).IsWhole) :
    View.read (Elt F) (View.whole cc1_scratch0) (h.unread xs) = xs := h.read_unread xs

theorem accFirst_eq (c : Dev nD) (t : Fin cfg1.N) (h0 : isFirst (grid1.coords t)) (h1 : ¬isLast (grid1.coords t)) :
    accFirst V c t h0 h1 = k1_pay2 (convBlk V c 0 t) (xRows t (convBlk V c 1 t)) (k1_pay1 (F := F)) := by
  unfold accFirst
  rw [View.read_writes_eq_canon _ _ _ (accFirst_cover V c t h0 h1)]
  unfold runFirst
  dsimp only
  sl_unfold_run_names
  rw [View.canon_cons_unit_zero zero2]
  simp only [View.readAt_eq_ld, Memref.IsWhole.read_unread, acc_read_unread, View.ld_unit_zero (S := S2048x1024) zero2, View.readCov_unit_zero (S := S2048x128) _ zero2]
  rfl

theorem accMid_eq (c : Dev nD) (t : Fin cfg1.N) (h0 : ¬isFirst (grid1.coords t)) (h1 : ¬isLast (grid1.coords t)) (xs : Vec F S2048x128 .f32) :
    accMid V c t h0 h1 xs = k1_pay2 (convBlk V c 0 t) (xRows t (convBlk V c 1 t)) xs := by
  unfold accMid
  rw [View.read_writes_eq_canon _ _ _ (accMid_cover V c t h0 h1 xs)]
  unfold runMid
  dsimp only
  sl_unfold_run_names
  rw [View.canon_unit_zero zero2]
  simp only [View.readAt_eq_ld, Memref.IsWhole.read_unread, acc_read_unread, View.ld_unit_zero (S := S2048x1024) zero2, View.ld_unit_zero (S := S2048x128) zero2]
  rfl

theorem accLast_eq (c : Dev nD) (t : Fin cfg1.N) (h0 : ¬isFirst (grid1.coords t)) (h1 : isLast (grid1.coords t)) (xs : Vec F S2048x128 .f32) :
    accLast V c t h0 h1 xs = k1_pay2 (convBlk V c 0 t) (xRows t (convBlk V c 1 t)) xs := by
  unfold accLast
  rw [View.read_writes_eq_canon _ _ _ (accLast_cover V c t h0 h1 xs)]
  unfold runLast
  dsimp only
  sl_unfold_run_names
  rw [View.canon_unit_zero zero2]
  simp only [View.readAt_eq_ld, Memref.IsWhole.read_unread, acc_read_unread, View.ld_unit_zero (S := S2048x1024) zero2, View.ld_unit_zero (S := S2048x128) zero2]
  rfl

theorem outLast_eq (c : Dev nD) (t : Fin cfg1.N) (h0 : ¬isFirst (grid1.coords t)) (h1 : isLast (grid1.coords t)) (xs : Vec F S2048x128 .f32) :
    outLast V c t h0 h1 xs = k1_pay3 (k1_pay2 (convBlk V c 0 t) (xRows t (convBlk V c 1 t)) xs) (convBlk V c 2 t) := by
  unfold outLast
  rw [View.read_writes_eq_canon _ _ _ (outLast_cover V c t h0 h1 xs)]
  unfold runLast
  dsimp only
  sl_unfold_run_names
  rw [View.canon_unit_zero zero2]
  simp only [View.readAt_eq_ld, Memref.IsWhole.read_unread, acc_read_unread, View.ld_unit_zero (S := S2048x1024) zero2, View.ld_unit_zero (S := S2048x128) zero2, View.ld_unit_zero (S := S2048x1) zero2, View.readCov_unit_zero (S := S2048x128) _ zero2]
  rfl

end Cert.KernelIdeal.Conv

end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.BlockSum.lean ====
/-
  The sum over 8192 indices, taken in 8 blocks of 1024.

  8192 = 8 · 1024, and the index k · 1024 + r runs through 0 … 8191 exactly once as k runs through the 8 blocks and
  r through the 1024 positions inside a block; so a sum over all indices is the sum of the 8 block sums. This is the
  general block-sum law at b = 8, n = 1024; it needs no finiteness of the summands.
-/
import proofs.«128527_j89799176225551_2_alg».proof.Proof.Spec
import proofs.«128527_j89799176225551_2_alg».proof.Proof.LibBlockSumN

noncomputable section

open scoped BigOperators

namespace Cert.Spec

/-- A sum over 8192 indices is the sum over 8 blocks of the sums over the 1024 positions of a block. -/
theorem sum_eight_blocks (f : Fin 8192 → EReal) :
    ∑ j : Fin 8192, f j
      = ∑ k : Fin 8, ∑ r : Fin 1024, f ⟨k.val * 1024 + r.val, by have := k.isLt; have := r.isLt; omega⟩ :=
  Cert.BlockSumN.sum_blocks_of_eq 8 1024 rfl f

end Cert.Spec

end
-- ==== Proof.LibBlockFold.lean ====
/-
  An accumulator carried over the steps of one block row.

  Let `acc m` be what an accumulator holds after step `m`, and `part m` what step `m` adds. If the first step
  of a row (`m = base`) leaves `0 + part base` and every later step `base + (s + 1)` of the row leaves what the
  step before left plus its own part, then after step `base + s` the accumulator is the sum of the parts of the
  steps `base … base + s`. Induction on `s`; holds in any additive commutative monoid, so for extended reals
  with no finiteness.
-/
import Idealize.ShloMosaic.Lib.ValueIdx

namespace Cert.BlockFold

open scoped BigOperators

theorem fold_blocks {α : Type} [AddCommMonoid α] (n : Nat) (acc part : Nat → α) (base : Nat)
    (h0 : acc base = 0 + part base)
    (hs : ∀ s, s + 1 < n → acc (base + (s + 1)) = acc (base + s) + part (base + (s + 1))) :
    ∀ s, s < n → acc (base + s) = ∑ s' ∈ Finset.range (s + 1), part (base + s') := by
  intro s
  induction s with
  | zero =>
    intro _
    rw [Nat.add_zero, h0, zero_add, Finset.sum_range_one, Nat.add_zero]
  | succ s ih =>
    intro h
    rw [hs s h, ih (Nat.lt_of_succ_lt h), Finset.sum_range_succ (fun s' => part (base + s')) (s + 1)]

end Cert.BlockFold
-- ==== Proof.KI.ConvValue.lean ====
/-
  What the product pass leaves in its output array, at the ideal reading of the floats.

  Point `t` of the grid is row block `t / 8`, column step `t mod 8`: its adjacency block holds rows
  `2048 (t / 8) + r` and columns `1024 (t mod 8) + j`, it multiplies with rows `1024 (t mod 8) + j` of the scaled
  projection, and its degree column and output block hold rows `2048 (t / 8) + r`. At entry (r, o) the first
  column step of a row block leaves the accumulator at `0 +` its block product, every later step adds its own:
  after the last step the accumulator is the sum over the eight steps of the block products, which is the whole
  contraction over the 8192 columns taken in eight blocks of 1024. The last step writes that, scaled by the
  row's inverse square-root degree, into the output block, and only the last steps copy their block back; the
  four row blocks tile the array. So the array ends at `convOut` of the adjacency, the scaled projection and the
  degree column as the pass found them.
-/
import proofs.«128527_j89799176225551_2_alg».proof.Proof.KI.ConvPieces
import proofs.«128527_j89799176225551_2_alg».proof.Proof.KI.Payloads
import proofs.«128527_j89799176225551_2_alg».proof.Proof.KI.Arrays
import proofs.«128527_j89799176225551_2_alg».proof.Proof.BlockSum
import proofs.«128527_j89799176225551_2_alg».proof.Proof.LibBlockFold
import Idealize.ShloMosaic.Lib.Pipeline.Value

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The three arrays the pass reads, as plain functions: the adjacency, the scaled projection, the degree column. -/
abbrev adjArr (c : Dev nD) : S8192x8192.Idx → EReal := V c main_arg1
abbrev xArr (c : Dev nD) : S8192x128.Idx → EReal := V c main_v7
abbrev dArr (c : Dev nD) : S8192x1.Idx → EReal := V c main_v4

/-- Where the blocks of point `t` sit. -/
theorem conv_idx : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ k1_off1 (grid1.coords t) (0 : Fin 2) = t.val % 8 * 1024 ∧ k1_off1 (grid1.coords t) (1 : Fin 2) = 0 :=
  (by decide +kernel : ∀ t : Fin grid1.N, _)

theorem lt32 (t : Fin cfg1.N) : t.val < 32 := lt_of_lt_of_eq t.isLt (show cfg1.N = 32 from N_1)

/-- Row `r` of the blocks of point `t`, and column `j` of its adjacency block, in the arrays. -/
def rowOf (t : Fin cfg1.N) (r : Fin 2048) : Fin 8192 := ⟨t.val / 8 * 2048 + r.val, by have := lt32 t; have := r.isLt; omega⟩
def colOf (t : Fin cfg1.N) (j : Fin 1024) : Fin 8192 := ⟨t.val % 8 * 1024 + j.val, by have := j.isLt; omega⟩

theorem convA_read (c : Dev nD) (t : Fin cfg1.N) (r : Fin 2048) (j : Fin 1024) :
    convBlk V c 0 t (ix2 r j) = adjArr V c (ix2 (rowOf t r) (colOf t j)) := by
  obtain ⟨e0, e1, -⟩ := conv_idx t
  show V c main_arg1 (((cfg1.win 0).blk t).view.emb (ix2 r j)) = _
  refine congrArg _ ?_
  funext a; apply Fin.ext
  match a with
  | ⟨0, _⟩ => show win1_0.index t (0 : Fin 2) * 2048 + 1 * r.val = t.val / 8 * 2048 + r.val; omega
  | ⟨1, _⟩ => show win1_0.index t (1 : Fin 2) * 1024 + 1 * j.val = t.val % 8 * 1024 + j.val; omega

theorem convX_read (c : Dev nD) (t : Fin cfg1.N) (j : Fin 1024) (o : Fin 128) :
    xRows t (convBlk V c 1 t) (ix2 j o) = xArr V c (ix2 (colOf t j) o) := by
  obtain ⟨-, -, e2, e3, -, -, -, -, e8, e9⟩ := conv_idx t
  show V c main_v7 (((cfg1.win 1).blk t).view.emb ((Rect.unit (s := S8192x128) (k1_off1 (grid1.coords t)) S1024x128.size (k1_off1_inb (grid1.coords t))).emb (ix2 j o))) = _
  refine congrArg _ ?_
  funext a; apply Fin.ext
  match a with
  | ⟨0, _⟩ => show win1_1.index t (0 : Fin 2) * 8192 + 1 * (k1_off1 (grid1.coords t) (0 : Fin 2) + 1 * j.val) = t.val % 8 * 1024 + j.val; omega
  | ⟨1, _⟩ => show win1_1.index t (1 : Fin 2) * 128 + 1 * (k1_off1 (grid1.coords t) (1 : Fin 2) + 1 * o.val) = o.val; omega

theorem convD_read (c : Dev nD) (t : Fin cfg1.N) (r : Fin 2048) :
    convBlk V c 2 t (ix2 r (0 : Fin 1)) = dArr V c (ix2 (rowOf t r) (0 : Fin 1)) := by
  obtain ⟨-, -, -, -, e4, e5, -⟩ := conv_idx t
  show V c main_v4 (((cfg1.win 2).blk t).view.emb (ix2 r (0 : Fin 1))) = _
  refine congrArg _ ?_
  funext a; apply Fin.ext
  match a with
  | ⟨0, _⟩ => show win1_2.index t (0 : Fin 2) * 2048 + 1 * r.val = t.val / 8 * 2048 + r.val; omega
  | ⟨1, _⟩ => show win1_2.index t (1 : Fin 2) * 1 + 1 * 0 = 0; omega

/-! ## The accumulator, step by step -/

/-- The block product of point `n` at entry (r, o). -/
def part (c : Dev nD) (n : ℕ) (hn : n < cfg1.N) (r : Fin 2048) (o : Fin 128) : EReal :=
  ∑ j : Fin 1024, adjArr V c (ix2 (rowOf ⟨n, hn⟩ r) (colOf ⟨n, hn⟩ j)) * xArr V c (ix2 (colOf ⟨n, hn⟩ j) o)

theorem pay_acc_at (c : Dev nD) (t : Fin cfg1.N) (xs : Vec Ideal S2048x128 .f32) (r : Fin 2048) (o : Fin 128) :
    k1_pay2 (F := Ideal) (convBlk V c 0 t) (xRows t (convBlk V c 1 t)) xs (ix2 r o) = xs (ix2 r o) + part V c t.val t.isLt r o := by
  refine (pay_acc (convBlk V c 0 t) (xRows t (convBlk V c 1 t)) xs r o).trans ?_
  refine congrArg _ ?_
  unfold part
  refine Finset.sum_congr rfl fun j _ => ?_
  rw [convA_read, convX_read]

theorem acc_first (c : Dev nD) (t : Fin cfg1.N) (h0 : t.val % 8 = 0) (r : Fin 2048) (o : Fin 128) :
    (convAt V c t.val t.isLt).2 (ix2 r o) = 0 + part V c t.val t.isLt r o := by
  rw [convAt_first V c t h0]
  dsimp only
  rw [accFirst_eq, pay_acc_at, pay_zero]

theorem acc_step (c : Dev nD) (t : Fin cfg1.N) (h0 : ¬t.val % 8 = 0) (r : Fin 2048) (o : Fin 128) :
    (convAt V c t.val t.isLt).2 (ix2 r o)
      = (convAt V c (t.val - 1) (Nat.lt_of_le_of_lt (Nat.sub_le _ _) t.isLt)).2 (ix2 r o) + part V c t.val t.isLt r o := by
  by_cases h1 : t.val % 8 = 7
  · rw [convAt_last V c t h0 h1]
    dsimp only
    rw [accLast_eq, pay_acc_at]
  · rw [convAt_mid V c t h0 h1]
    dsimp only
    rw [accMid_eq, pay_acc_at]

/-- After the last column step of row block `p` the accumulator holds the sum of the eight block products. -/
theorem acc_last_sum (c : Dev nD) (p : Fin 4) (r : Fin 2048) (o : Fin 128) (h : 8 * p.val + 7 < cfg1.N) :
    (convAt V c (8 * p.val + 7) h).2 (ix2 r o)
      = ∑ s ∈ Finset.range 8, (if hs : 8 * p.val + s < cfg1.N then part V c (8 * p.val + s) hs r o else 0) := by
  have hN : cfg1.N = 32 := N_1
  have hp := p.isLt
  have key := Cert.BlockFold.fold_blocks 8
    (fun n => if hn : n < cfg1.N then (convAt V c n hn).2 (ix2 r o) else 0)
    (fun n => if hn : n < cfg1.N then part V c n hn r o else 0) (8 * p.val)
    (by
      have hb : 8 * p.val < cfg1.N := by omega
      simp only [dif_pos hb]
      exact acc_first V c ⟨8 * p.val, hb⟩ (by show (8 * p.val) % 8 = 0; omega) r o)
    (fun s hs => by
      have hb : 8 * p.val + (s + 1) < cfg1.N := by omega
      have hb' : 8 * p.val + s < cfg1.N := by omega
      simp only [dif_pos hb, dif_pos hb']
      have := acc_step V c ⟨8 * p.val + (s + 1), hb⟩ (by show ¬(8 * p.val + (s + 1)) % 8 = 0; omega) r o
      simpa only [show 8 * p.val + (s + 1) - 1 = 8 * p.val + s from by omega] using this)
    7 (by omega)
  simp only [dif_pos h] at key
  exact key

/-- The eight block products of row block `p` are the whole contraction. -/
theorem parts_sum (c : Dev nD) (p : Fin 4) (r : Fin 2048) (o : Fin 128) (row : Fin 8192) (hrow : row.val = p.val * 2048 + r.val) :
    (∑ s ∈ Finset.range 8, (if hs : 8 * p.val + s < cfg1.N then part V c (8 * p.val + s) hs r o else 0))
      = ∑ k : Fin 8192, adjArr V c (ix2 row k) * xArr V c (ix2 k o) := by
  have hN : cfg1.N = 32 := N_1
  have hp := p.isLt
  rw [Cert.Spec.sum_eight_blocks (fun k => adjArr V c (ix2 row k) * xArr V c (ix2 k o)), Finset.sum_range]
  refine Finset.sum_congr rfl fun s _ => ?_
  have hs := s.isLt
  have hb : 8 * p.val + s.val < cfg1.N := by omega
  rw [dif_pos hb]
  unfold part
  refine Finset.sum_congr rfl fun j _ => ?_
  have hj := j.isLt
  have e1 : rowOf ⟨8 * p.val + s.val, hb⟩ r = row := Fin.ext (by show (8 * p.val + s.val) / 8 * 2048 + r.val = row.val; omega)
  have e2 : colOf ⟨8 * p.val + s.val, hb⟩ j = (⟨s.val * 1024 + j.val, by omega⟩ : Fin 8192) := Fin.ext (by show (8 * p.val + s.val) % 8 * 1024 + j.val = s.val * 1024 + j.val; omega)
  rw [e1, e2]

/-! ## What a last step writes back, and the cover -/

/-- The accumulation does not depend on how a point's number is written. -/
theorem convAt_congr (c : Dev nD) (n n' : ℕ) (e : n = n') (hn : n < cfg1.N) (hn' : n' < cfg1.N) : convAt V c n hn = convAt V c n' hn' := by
  subst e; rfl

theorem conv_flushed (c : Dev nD) (t : Fin cfg1.N) (hf : (cfg1.win 3).flush t = true) :
    (convDat V c).flushed 3 t = ((cfg1.win 3).blk t).view.read (Elt Ideal) (convOut (adjArr V c) (xArr V c) (dArr V c)) := by
  have h1 : t.val % 8 = 7 := (flush1_3 t).mp hf
  have h0 : ¬t.val % 8 = 0 := by omega
  have ht := lt32 t
  obtain ⟨-, -, -, -, -, -, e6, e7, -⟩ := conv_idx t
  funext y
  obtain ⟨r, o, rfl⟩ : ∃ (r : Fin 2048) (o : Fin 128), y = ix2 r o := ⟨y 0, y 1, eq_ix2 y⟩
  have hL : (convDat V c).flushed 3 t (ix2 r o) = (convAt V c t.val t.isLt).1 (ix2 r o) := by
    show (cfg1.win 3).cut (grid1.coords t) ((convDat V c).after 3 t) (ix2 r o) = _
    rw [convDat_after3]
    rfl
  have hemb : ((cfg1.win 3).blk t).view.emb (ix2 r o) = ix2 (rowOf t r) o := by
    funext a; apply Fin.ext
    match a with
    | ⟨0, _⟩ => show win1_3.index t (0 : Fin 2) * 2048 + 1 * r.val = t.val / 8 * 2048 + r.val; omega
    | ⟨1, _⟩ => show win1_3.index t (1 : Fin 2) * 128 + 1 * o.val = o.val; omega
  have hR : ((cfg1.win 3).blk t).view.read (Elt Ideal) (convOut (adjArr V c) (xArr V c) (dArr V c)) (ix2 r o)
      = convOut (adjArr V c) (xArr V c) (dArr V c) (ix2 (rowOf t r) o) := by
    show convOut (adjArr V c) (xArr V c) (dArr V c) (((cfg1.win 3).blk t).view.emb (ix2 r o)) = _
    rw [hemb]
  rw [hL, hR, convAt_last V c t h0 h1]
  dsimp only
  rw [outLast_eq]
  refine (pay_scale _ (convBlk V c 2 t) r o).trans ?_
  rw [convOut_apply, convD_read]
  refine congrArg (· * _) ?_
  rw [pay_acc_at, ← acc_step V c t h0 r o]
  have hp : t.val / 8 < 4 := by omega
  have hte : t.val = 8 * (t.val / 8) + 7 := by omega
  have hb : 8 * (t.val / 8) + 7 < cfg1.N := by rw [← hte]; exact t.isLt
  exact ((congrFun (congrArg Prod.snd (convAt_congr V c t.val (8 * (t.val / 8) + 7) hte t.isLt hb)) (ix2 r o)).trans
    (acc_last_sum V c ⟨t.val / 8, hp⟩ r o hb)).trans (parts_sum V c ⟨t.val / 8, hp⟩ r o (rowOf t r) rfl)

theorem conv_mem_blk (t : Fin cfg1.N) (i : S8192x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v8).slice (win1_3.rect t)).set ↔ _
  rw [View.set_slice_whole, Rect.mem_set_unit]
  exact Iff.rfl

/-- Every entry of the array is in the output block of the last column step of its row block. -/
theorem conv_cover (i : S8192x128.Idx) : ∃ t : Fin cfg1.N, (cfg1.win 3).flush t = true ∧ i ∈ ((cfg1.win 3).blk t).view.set := by
  have hi0 : (i 0).val < 8192 := idx2_lt0 i
  have hi1 : (i 1).val < 128 := idx2_lt1 i
  have hN : cfg1.N = 32 := N_1
  have ht : 8 * ((i 0).val / 2048) + 7 < cfg1.N := by rw [hN]; omega
  obtain ⟨-, -, -, -, -, -, e6, e7, -⟩ := conv_idx ⟨8 * ((i 0).val / 2048) + 7, ht⟩
  have hv : (⟨8 * ((i 0).val / 2048) + 7, ht⟩ : Fin cfg1.N).val = 8 * ((i 0).val / 2048) + 7 := rfl
  refine ⟨⟨8 * ((i 0).val / 2048) + 7, ht⟩, (flush1_3 _).mpr (by rw [hv]; omega), ?_⟩
  rw [conv_mem_blk]
  intro a
  match a with
  | ⟨0, _⟩ =>
    show win1_3.index ⟨8 * ((i 0).val / 2048) + 7, ht⟩ (0 : Fin 2) * 2048 ≤ (i 0).val ∧ (i 0).val < win1_3.index ⟨8 * ((i 0).val / 2048) + 7, ht⟩ (0 : Fin 2) * 2048 + 2048
    omega
  | ⟨1, _⟩ =>
    show win1_3.index ⟨8 * ((i 0).val / 2048) + 7, ht⟩ (1 : Fin 2) * 128 ≤ (i 1).val ∧ (i 1).val < win1_3.index ⟨8 * ((i 0).val / 2048) + 7, ht⟩ (1 : Fin 2) * 128 + 128
    omega

/-- After the product pass its output array is `convOut` of the arrays it read. -/
theorem conv_final (c : Dev nD) : (convDat V c).arrAt 3 cfg1.N = convOut (adjArr V c) (xArr V c) (dArr V c) :=
  (convDat V c).arrAt_eq_of_cover 3 _ (fun t hf => conv_flushed V c t hf) conv_cover

end Cert.KernelIdeal.Conv

end
-- ==== Proof.KI.HostValues.lean ====
/-
  The kernel program's host operations, read at an index, over the extended reals.

  * Before the first device pass: the contraction of the features with the weights, plus the bias viewed as one row and
    that row broadcast over all rows — at (j, o) this is (∑ d, X[j,d] · W[d,o]) + b[o], the dense projection.
  * Between the passes: the projection times the inverse square-root degrees, a one-column array broadcast along the columns,
    then narrowed to the short format — at (j, o) this is p[j,o] · v[j,0]; the narrowing is the identity on extended reals.
  Each broadcast only re-indexes: a coordinate on a unit axis reads 0, every other coordinate is copied.
-/
import proofs.«128527_j89799176225551_2_alg».proof.Proof.Gen.KernelIdeal
import proofs.«128527_j89799176225551_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Conv

open Cert.KernelIdeal Cert.KernelIdeal.Gen Idealize.ShloMosaic Idealize.ShloMosaic.ValueIdx

/-- The host's projection: the contraction plus the bias row broadcast over the rows. -/
def hostProj (x0 : FVec Ideal S8192x128 .f32) (x2 : FVec Ideal S128x128 .f32) (x3 : FVec Ideal S128 .f32) : FVec Ideal S8192x128 .f32 :=
  addf (Host.dotGeneral (F := Ideal) dot_S8192x128_S128x128_S8192x128_1_0_0_1_n_n none x0 x2) (broadcastInDim S8192x128 ![0, 1] bcast_S1x128_S8192x128_0_1 (broadcastInDim S1x128 ![1] bcast_S128_S1x128_1 x3))

/-- The host's column scaling: the product with the broadcast column, narrowed. -/
def hostScaled (p : FVec Ideal S8192x128 .f32) (v4 : FVec Ideal S8192x1 .f32) : FVec Ideal S8192x128 .bf16 :=
  truncf .bf16 (mulf p (broadcastInDim S8192x128 ![0, 1] bcast_S8192x1_S8192x128_0_1 v4)) bitsLt_bf16_f32

theorem lhs_proj_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem lhs_proj_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_proj_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_proj_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The host's contraction at `(j, o)` is the sum over the 128 input features. -/
theorem hostDot_apply (x0 : FVec Ideal S8192x128 .f32) (x2 : FVec Ideal S128x128 .f32) (j : Fin 8192) (o : Fin 128) :
    Host.dotGeneral (F := Ideal) dot_S8192x128_S128x128_S8192x128_1_0_0_1_n_n none x0 x2 (ix2 j o)
      = ∑ d : Fin 128, x0 (ix2 j d) * x2 (ix2 d o) := by
  show FloatOps.dotGeneral dot_S8192x128_S128x128_S8192x128_1_0_0_1_n_n none .single x0 x2 (ix2 j o) = _
  rw [Ideal.dotGeneral_apply,
    ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 j o)
      ((ValueIdx.contrEquiv1 dot_S8192x128_S128x128_S8192x128_1_0_0_1_n_n 128 rfl rfl).symm k) = ix2 j k :=
    funext fun a => Fin.ext (by
      match a with
      | ⟨0, _⟩ => exact lhs_proj_0 _ _
      | ⟨1, _⟩ => exact (lhs_proj_1 _ _).trans hk)
  have er : dot_S8192x128_S128x128_S8192x128_1_0_0_1_n_n.rhsIdx (ix2 j o)
      ((ValueIdx.contrEquiv1 dot_S8192x128_S128x128_S8192x128_1_0_0_1_n_n 128 rfl rfl).symm k) = ix2 k o :=
    funext fun a => Fin.ext (by
      match a with
      | ⟨0, _⟩ => exact (rhs_proj_0 _ _).trans hk
      | ⟨1, _⟩ => exact rhs_proj_1 _ _)
  rw [el, er]

/-- The bias viewed as a row and broadcast over the rows reads, at `(j, o)`, the bias at `o`. -/
theorem hostBias_apply (x3 : FVec Ideal S128 .f32) (j : Fin 8192) (o : Fin 128) :
    broadcastInDim S8192x128 ![0, 1] bcast_S1x128_S8192x128_0_1 (broadcastInDim S1x128 ![1] bcast_S128_S1x128_1 x3) (ix2 j o)
      = x3 (ix1 o) := by
  refine (broadcastInDim_apply _ bcast_S1x128_S8192x128_0_1 _ (ix2 j o) (ix2 (0 : Fin 1) o) (fun a => ?_)).trans ?_
  · match a with
    | ⟨0, _⟩ => show 0 = if (1 : Nat) = 1 then 0 else j.val; rw [if_pos rfl]
    | ⟨1, _⟩ => show o.val = if (128 : Nat) = 1 then 0 else o.val; rw [if_neg (by decide)]
  · refine broadcastInDim_apply _ bcast_S128_S1x128_1 x3 (ix2 (0 : Fin 1) o) (ix1 o) (fun a => ?_)
    match a with
    | ⟨0, _⟩ => show o.val = if (128 : Nat) = 1 then 0 else o.val; rw [if_neg (by decide)]

/-- The host's projection at `(j, o)` is the dense projection of node `j`, output feature `o`. -/
theorem hostProj_apply (x0 : FVec Ideal S8192x128 .f32) (x2 : FVec Ideal S128x128 .f32) (x3 : FVec Ideal S128 .f32)
    (j : Fin 8192) (o : Fin 128) : hostProj x0 x2 x3 (ix2 j o) = Cert.Spec.proj x0 x2 x3 j o := by
  unfold hostProj Cert.Spec.proj
  rw [addf_apply, hostDot_apply, hostBias_apply]

/-- The host's column scaling at `(j, o)` is the entry times the column's entry of row `j`. -/
theorem hostScaled_apply (p : FVec Ideal S8192x128 .f32) (v4 : FVec Ideal S8192x1 .f32) (j : Fin 8192) (o : Fin 128) :
    hostScaled p v4 (ix2 j o) = p (ix2 j o) * v4 (ix2 j (0 : Fin 1)) := by
  unfold hostScaled
  rw [truncf_apply, mulf_apply]
  refine congrArg (p (ix2 j o) * ·) ?_
  refine broadcastInDim_apply _ bcast_S8192x1_S8192x128_0_1 v4 (ix2 j o) (ix2 j (0 : Fin 1)) (fun a => ?_)
  match a with
  | ⟨0, _⟩ => show j.val = if (8192 : Nat) = 1 then 0 else j.val; rw [if_neg (by decide)]
  | ⟨1, _⟩ => show 0 = if (1 : Nat) = 1 then 0 else o.val; rw [if_pos rfl]

end Cert.KernelIdeal.Conv

end
-- ==== Proof.KI.Boundary.lean ====
/-
  What the buffers hold at each boundary of the program, buffer by buffer, over the extended reals.

  The program is four items: host operations that compute the dense projection, the degree pass, host operations that
  scale the projection's rows' entries by the degree column and narrow the result, and the product pass.
  * The first stretch writes only its own four results, so the adjacency is still the launch array, and its last result is the
    contraction plus the broadcast bias of the launch arrays: the host's projection.
  * The degree pass changes only its windows' arrays: the projection stays, its output array holds what the pass leaves, and
    the adjacency, an input window's array, is as the pass found it.
  * The second stretch writes only its own three results: the adjacency and the degree column stay, and its last result is
    the projection times the broadcast degree column, narrowed: the host's column scaling.
-/
import proofs.«128527_j89799176225551_2_alg».proof.Proof.KI.Run
import proofs.«128527_j89799176225551_2_alg».proof.Proof.KI.HostValues

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- After the first host stretch the adjacency is the launch array: no operation of the stretch writes it. -/
theorem V1_arg1 (c : Dev nD) : V1 m ρ c main_arg1 = m ((c : Thread nD τ).loc main_arg1) :=
  calc V1 m ρ c main_arg1
    _ = W0 m ρ c (Proc.devRef .tc main_arg1) :=
      StableHlo.after_of_writes_sub hostOps0 (W0 m ρ c) hostOps0_writes (by decide : (main_arg1 : Ref sig .tc) ∉ hostOps0_W)
    _ = m ((c : Thread nD τ).loc main_arg1) := rfl

/-- After the first host stretch its last result is the host's projection of the launch arrays. -/
theorem V1_v3 (c : Dev nD) :
    V1 m ρ c main_v3
      = hostProj (m ((c : Thread nD τ).loc main_arg0)) (m ((c : Thread nD τ).loc main_arg2)) (m ((c : Thread nD τ).loc main_arg3)) := by
  show StableHlo.after hostOps0 (W0 m ρ c) (Proc.devRef .tc main_v3) = _
  dsimp only [hostOps0]
  after_results
  rfl

/-- The degree pass leaves the projection as it found it. -/
theorem V2_v3 (c : Dev nD) : V2 m ρ c main_v3 = V1 m ρ c main_v3 := W2_of_ne m ρ c main_v3 (by decide)

/-- After the degree pass its output array holds what the pass leaves. -/
theorem V2_v4 (c : Dev nD) : V2 m ρ c main_v4 = (degDat (V1 m ρ) c).arrAt 1 cfg0.N := W2_arr m ρ c 1

/-- At the product pass's entry the adjacency is still the launch array. -/
theorem V3_arg1 (c : Dev nD) : V3 m ρ c main_arg1 = m ((c : Thread nD τ).loc main_arg1) :=
  calc V3 m ρ c main_arg1
    _ = W2 m ρ c (Proc.devRef .tc main_arg1) :=
      StableHlo.after_of_writes_sub hostOps1 (W2 m ρ c) hostOps1_writes (by decide : (main_arg1 : Ref sig .tc) ∉ hostOps1_W)
    _ = W1 m ρ c (Proc.devRef .tc main_arg1) :=
      (W2_arr m ρ c 0).trans (((degDat (V1 m ρ) c).arrAt_in 0 rfl _).trans (degDat_A (V1 m ρ) c 0))
    _ = m ((c : Thread nD τ).loc main_arg1) := V1_arg1 m ρ c

/-- The second host stretch leaves the degree column as it found it. -/
theorem V3_v4 (c : Dev nD) : V3 m ρ c main_v4 = V2 m ρ c main_v4 :=
  StableHlo.after_of_writes_sub hostOps1 (W2 m ρ c) hostOps1_writes (by decide : (main_v4 : Ref sig .tc) ∉ hostOps1_W)

/-- After the second host stretch its last result is the host's column scaling of the projection by the degree column. -/
theorem V3_v7 (c : Dev nD) : V3 m ρ c main_v7 = hostScaled (V2 m ρ c main_v3) (V2 m ρ c main_v4) := by
  show StableHlo.after hostOps1 (W2 m ρ c) (Proc.devRef .tc main_v7) = _
  dsimp only [hostOps1]
  after_results
  rfl

end Cert.KernelIdeal.Conv

end
-- ==== Proof.KI.Glue.lean ====
/-
  The two device passes' results, composed with the host operations between them, are the column-then-row scaled form.

  Entry (i, o) of the product pass's result array is the contraction of row i of the adjacency with column o of the
  scaled features, times entry i of the column of inverse square-root degrees. The scaled features at (k, o) are the dense
  projection of node k at output feature o times the inverse square-root degree of node k. Substituting, entry (i, o) is
      (∑ k, A[i,k] · (proj k o · dinv k)) · dinv i,
  which is the specification's column-then-row scaled form, term by term.
-/
import proofs.«128527_j89799176225551_2_alg».proof.Proof.KI.Arrays
import proofs.«128527_j89799176225551_2_alg».proof.Proof.KI.HostValues
import proofs.«128527_j89799176225551_2_alg».proof.Proof.Spec

noncomputable section

open scoped BigOperators

namespace Cert.KernelIdeal.Conv

open Cert.KernelIdeal Cert.KernelIdeal.Gen Idealize.ShloMosaic Idealize.ShloMosaic.ValueIdx

/-- The product pass's result over the host-scaled projection and the degree column is the column-then-row scaled form. -/
theorem convOut_scaled (X0 : S8192x128.Idx → EReal) (A : S8192x8192.Idx → EReal) (Wt : S128x128.Idx → EReal)
    (b : S128.Idx → EReal) (i : Fin 8192) (o : Fin 128) :
    convOut A (hostScaled (hostProj X0 Wt b) (dinvArr A)) (dinvArr A) (ix2 i o) = Cert.Spec.outScaled X0 A Wt b i o := by
  rw [convOut_apply, dinvArr_apply]
  unfold Cert.Spec.outScaled
  refine congrArg (· * Cert.Spec.dinv A i) (Finset.sum_congr rfl fun k _ => ?_)
  rw [hostScaled_apply, hostProj_apply, dinvArr_apply]

end Cert.KernelIdeal.Conv

end
-- ==== Proof.RefValue.lean ====
/-
  The reference program, read at an output index, is the normalised-Laplacian form of the layer.

  The reference builds its result one array operation at a time. Read at the index (p, q):
  * the last operation is a contraction over k of a left factor at (p, k) and a right factor at (k, q);
  * the right factor is the dense projection: the contraction over d of X[k,d] · W[d,q], plus the bias b[q] broadcast along rows;
  * the row sum of A from the initial value zero is the degree; its square root plus the margin word is the denominator, and the
    word of 1 divided by it is the inverse square-root degree, a vector over the nodes;
  * the left factor is A[p,k] times that vector broadcast along columns (its entry p) times the same vector broadcast along
    rows (its entry k).
  Each layout operation only re-indexes, so once the composed index maps are identified with plain row/column indices the two
  sides are the same expression term by term.
-/
import proofs.«128527_j89799176225551_2_alg».proof.Proof.Spec
import proofs.«128527_j89799176225551_2_alg».proof.Proof.Gen.ReferenceIdeal.Read

noncomputable section

open scoped BigOperators

namespace Cert.ReferenceIdeal.RefValue

open Cert.ReferenceIdeal Cert.ReferenceIdeal.Read Idealize.ShloMosaic Idealize.ShloMosaic.ValueIdx

/-- The row sum from the zero initial value is the degree. -/
theorem deg_apply (x1 : (⟨S8192x8192, .f32⟩ : BufTy).Contents (Elt Ideal)) (i : Fin 8192) :
    val_main_v4 (F := Ideal) x1 (ix1 i) = Cert.Spec.deg x1 i := by
  rw [val_main_v4_apply, val_main_cst_apply, Ideal.ofBits_def, Ideal.ofBits_zero_f32, zero_add]
  unfold Cert.Spec.deg
  refine Finset.sum_congr rfl fun k _ => congrArg x1 ?_
  exact funext fun a => by match a with | ⟨0, _⟩ => rfl | ⟨1, _⟩ => rfl

/-- One over (the square root of the degree plus the margin) is the inverse square-root degree. -/
theorem dinv_apply (x1 : (⟨S8192x8192, .f32⟩ : BufTy).Contents (Elt Ideal)) (i : Fin 8192) :
    val_main_v9 (F := Ideal) x1 (ix1 i) = Cert.Spec.dinv x1 i := by
  rw [val_main_v9_apply, val_main_v8_apply, val_main_cst_1_apply, val_main_v7_apply, val_main_v5_apply, val_main_v6_apply,
    val_main_cst_0_apply, deg_apply]
  rfl

/-- The contraction of the features with the weights plus the broadcast bias is the dense projection. -/
theorem proj_apply (x0 : (⟨S8192x128, .f32⟩ : BufTy).Contents (Elt Ideal)) (x2 : (⟨S128x128, .f32⟩ : BufTy).Contents (Elt Ideal))
    (x3 : (⟨S128, .f32⟩ : BufTy).Contents (Elt Ideal)) (k : Fin 8192) (q : Fin 128) :
    val_main_v3 (F := Ideal) x0 x2 x3 (ix2 k q) = Cert.Spec.proj x0 x2 x3 k q := by
  rw [val_main_v3_apply, val_main_v0_apply, val_main_v2_apply, val_main_v1_apply]
  have e1 : idx_main_v1 (idx_main_v2 (ix2 k q)) = ix1 q := funext fun a => by match a with | ⟨0, _⟩ => rfl
  have el : ∀ d : Fin 128, lidx_main_v0 (ix2 k q) d = ix2 k d := fun d =>
    funext fun a => by match a with | ⟨0, _⟩ => rfl | ⟨1, _⟩ => rfl
  have er : ∀ d : Fin 128, ridx_main_v0 (ix2 k q) d = ix2 d q := fun d =>
    funext fun a => by match a with | ⟨0, _⟩ => rfl | ⟨1, _⟩ => rfl
  rw [e1]
  simp only [el, er]
  rfl

/-- The adjacency scaled by the inverse square-root degrees of its row and of its column. -/
theorem lap_apply (x1 : (⟨S8192x8192, .f32⟩ : BufTy).Contents (Elt Ideal)) (p k : Fin 8192) :
    val_main_v15 (F := Ideal) x1 (ix2 p k) = (x1 (ix2 p k) * Cert.Spec.dinv x1 p) * Cert.Spec.dinv x1 k := by
  rw [val_main_v15_apply, val_main_v12_apply, val_main_v11_apply, val_main_v10_apply, val_main_v14_apply, val_main_v13_apply]
  have e10 : idx_main_v10 (idx_main_v11 (ix2 p k)) = ix1 p := funext fun a => by match a with | ⟨0, _⟩ => rfl
  have e13 : idx_main_v13 (idx_main_v14 (ix2 p k)) = ix1 k := funext fun a => by match a with | ⟨0, _⟩ => rfl
  rw [e10, e13, dinv_apply, dinv_apply]
  rfl

/-- The reference at the index (p, q) is the normalised Laplacian times the projection. -/
theorem ref_apply (x0 : (⟨Cert.ReferenceIdeal.S8192x128, .f32⟩ : BufTy).Contents (Elt Ideal))
    (x1 : (⟨Cert.ReferenceIdeal.S8192x8192, .f32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal)) (p : Fin 8192) (q : Fin 128) :
    Cert.ReferenceIdeal.Read.val_main_v16 (F := Ideal) x0 x1 x2 x3 (ValueIdx.ix2 p q) = Cert.Spec.outLaplacian x0 x1 x2 x3 p q := by
  rw [val_main_v16_apply]
  unfold Cert.Spec.outLaplacian
  refine Finset.sum_congr rfl fun k _ => ?_
  have el : lidx_main_v16 (ix2 p q) k = ix2 p k := funext fun a => by match a with | ⟨0, _⟩ => rfl | ⟨1, _⟩ => rfl
  have er : ridx_main_v16 (ix2 p q) k = ix2 k q := funext fun a => by match a with | ⟨0, _⟩ => rfl | ⟨1, _⟩ => rfl
  rw [el, er, lap_apply, proj_apply]

end Cert.ReferenceIdeal.RefValue

end
-- ==== Proof.Algebra.lean ====
/-
  The two forms of the graph-convolution output agree on real inputs.

  Every quantity below lives in the extended reals, but on real inputs every one of them is (the image of) a real number:
  * a finite sum of real numbers is a real number (`coe_finset_sum`), so the projection `proj` and the degree `deg` are real;
  * the margin ε is the positive dyadic 11258999 · 2⁻⁵⁰ and the numerator is the real number 1;
  * the inverse square-root degree `dinv` is real in both cases of the square root: a negative degree has square
    root ⊥, ⊥ + ε = ⊥, and 1 / ⊥ = 1 · ⊥⁻¹ = 0; a non-negative degree d has denominator √d + ε > 0, a non-zero real,
    and 1 / (√d + ε) is its real reciprocal.
  With all factors real, the identity
      (∑ j, a j · (p j · r j)) · s  =  ∑ j, ((a j · s) · r j) · p j
  is distributivity of a real factor over a finite sum, then commutativity and associativity term by term.
-/
import proofs.«128527_j89799176225551_2_alg».proof.Proof.Spec

noncomputable section

open scoped BigOperators

namespace Cert.Spec

open Idealize.ShloMosaic Idealize.ShloMosaic.ValueIdx

/-- The image of a finite real sum in the extended reals is the sum of the images. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The margin ε is a positive real number (the dyadic 11258999 · 2⁻⁵⁰). -/
theorem margin_pos : ∃ e : ℝ, 0 < e ∧ margin = (e : EReal) := by
  refine ⟨(11258999 : ℝ) * (2 : ℝ) ^ (-50 : ℤ), by positivity, ?_⟩
  simp [margin, Ideal.ofBits, Ideal.ieee, -EReal.coe_mul]

/-- The numerator is the real number 1. -/
theorem one_eq : one = (1 : EReal) := by
  rw [show (1 : EReal) = ((1 : ℝ) : EReal) by norm_cast]
  simp [one, Ideal.ofBits, Ideal.ieee, -EReal.coe_mul]
  norm_num

/-- The degree of a real adjacency is a real number. -/
theorem deg_finite (A : SA.Idx → EReal) (hA : Finite A) (i : Fin 8192) : ∃ d : ℝ, deg A i = (d : EReal) := by
  choose a ha using hA
  refine ⟨∑ j : Fin 8192, a (ix2 i j), ?_⟩
  unfold deg
  rw [coe_finset_sum]
  exact Finset.sum_congr rfl (fun j _ => ha _)

/-- The inverse square-root degree of a real adjacency is a real number, whatever the sign of the degree. -/
theorem dinv_finite (A : SA.Idx → EReal) (hA : Finite A) (i : Fin 8192) : ∃ r : ℝ, dinv A i = (r : EReal) := by
  obtain ⟨d, hd⟩ := deg_finite A hA i
  obtain ⟨e, he, hm⟩ := margin_pos
  unfold dinv
  rw [hd, hm, one_eq, Ideal.sqrt_coe]
  by_cases hneg : d < 0
  · refine ⟨0, ?_⟩
    rw [if_pos hneg, EReal.bot_add, Ideal.div, if_neg (by simp), EReal.inv_bot, mul_zero]
    rfl
  · rw [if_neg hneg, ← EReal.coe_add]
    have hpos : 0 < Real.sqrt d + e := add_pos_of_nonneg_of_pos (Real.sqrt_nonneg d) he
    refine ⟨1 / (Real.sqrt d + e), ?_⟩
    rw [Ideal.div_coe (ne_of_gt hpos), one_mul]

/-- The projection of real features by real weights and a real bias is a real number. -/
theorem proj_finite (X : SX.Idx → EReal) (W : SW.Idx → EReal) (b : Sb.Idx → EReal) (hX : Finite X) (hW : Finite W)
    (hb : Finite b) (j : Fin 8192) (o : Fin 128) : ∃ r : ℝ, proj X W b j o = (r : EReal) := by
  choose x hx using hX
  choose w hw using hW
  choose c hc using hb
  refine ⟨(∑ d : Fin 128, x (ix2 j d) * w (ix2 d o)) + c (ix1 o), ?_⟩
  unfold proj
  rw [EReal.coe_add, coe_finset_sum, hc]
  congr 1
  exact Finset.sum_congr rfl (fun d _ => by rw [hx, hw, EReal.coe_mul])

/-- Scaling the columns before the product and the rows after it gives the normalised-Laplacian form. -/
theorem outScaled_eq_outLaplacian (X : SX.Idx → EReal) (A : SA.Idx → EReal) (W : SW.Idx → EReal) (b : Sb.Idx → EReal)
    (hX : Finite X) (hA : Finite A) (hW : Finite W) (hb : Finite b) (i : Fin 8192) (o : Fin 128) :
    outScaled X A W b i o = outLaplacian X A W b i o := by
  have hd : ∀ k, ∃ r : ℝ, dinv A k = (r : EReal) := fun k => dinv_finite A hA k
  have hp : ∀ j, ∃ q : ℝ, proj X W b j o = (q : EReal) := fun j => proj_finite X W b hX hW hb j o
  choose a ha using hA
  choose r hr using hd
  choose p hp using hp
  unfold outScaled outLaplacian
  have hL : ∀ j : Fin 8192, A (ix2 i j) * (proj X W b j o * dinv A j) = ((a (ix2 i j) * (p j * r j) : ℝ) : EReal) := by
    intro j; rw [ha, hp, hr, EReal.coe_mul, EReal.coe_mul]
  have hR : ∀ j : Fin 8192, ((A (ix2 i j) * dinv A i) * dinv A j) * proj X W b j o
      = ((((a (ix2 i j) * r i) * r j) * p j : ℝ) : EReal) := by
    intro j; rw [ha, hp, hr, hr, EReal.coe_mul, EReal.coe_mul, EReal.coe_mul]
  rw [Finset.sum_congr rfl (fun j _ => hL j), Finset.sum_congr rfl (fun j _ => hR j), hr, ← coe_finset_sum,
    ← coe_finset_sum, ← EReal.coe_mul, EReal.coe_eq_coe_iff, Finset.sum_mul]
  exact Finset.sum_congr rfl (fun j _ => by ring)

end Cert.Spec

end
-- ==== Proof.FiniteArgs.lean ====
/-
  The precondition "every input is finite", read back as: every entry of X, A, W and b is a real number.

  The predicate is the conjunction of four tests, one per input, each of the form "all entries satisfy |x| < +∞":
  an entry-wise comparison of |x| against the word of +∞, reduced by "and" over every axis from the initial value true.
  * A conjunction of truth values is true exactly when both are; so each of the four tests is true.
  * An "and" over all entries that came out true met true at every entry; so |x| < +∞ at every entry.
  * The word 0x7F800000 is ⊤, and |x| = max x (−x). Of the three kinds of extended real, ⊥ has |⊥| = ⊤ and ⊤ has |⊤| = ⊤,
    neither below ⊤; what is left is a real number.
-/
import proofs.«128527_j89799176225551_2_alg».proof.Defs
import proofs.«128527_j89799176225551_2_alg».proof.Proof.Spec
import Idealize.ShloMosaic.Lib.ReduceAll

noncomputable section

namespace Cert.Spec

open Idealize.ShloMosaic Idealize.ShloMosaic.ValueIdx

/-- The result of a reduction over every axis has one index. -/
instance subsingleton_scalar_idx : Subsingleton Cert.Pre_finite_inputs.S_.Idx := ⟨fun _ _ => funext fun d => d.elim0⟩

/-- An extended real whose absolute value is below the word of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- An array whose entry-wise test |x| < +∞ is true everywhere has only real entries. -/
theorem finite_of_all {s : Shape} (a inf : FVec Ideal s .f32) (hinf : ∀ i, inf i = Ideal.ofBits .f32 0x7F800000#32)
    (hall : ∀ i, cmpf .olt (Host.absf a) inf i = 1#1) : Finite (s := s) a := by
  intro i
  have e : Ideal.cmp .olt (max (a i) (-(a i))) (inf i) = 1#1 := hall i
  rw [hinf i] at e
  exact real_of_abs_lt_inf (a i) e

/-- The precondition gives: every entry of each of the four inputs is a real number. -/
theorem finite_of_pre [hP : Cert.Pre_finite_inputs.Facts] (a0 : FVec Ideal Cert.Pre_finite_inputs.S8192x128 .f32)
    (a1 : FVec Ideal Cert.Pre_finite_inputs.S8192x8192 .f32) (a2 : FVec Ideal Cert.Pre_finite_inputs.S128x128 .f32)
    (a3 : FVec Ideal Cert.Pre_finite_inputs.S128 .f32)
    (h : Cert.Pre_finite_inputs.fn (F := Ideal) a0 a1 a2 a3 = (fun _ => 1#1)) :
    Finite (s := SX) a0 ∧ Finite (s := SA) a1 ∧ Finite (s := SW) a2 ∧ Finite (s := Sb) a3 := by
  have e := congrFun h ValueIdx.ix0
  dsimp only [Cert.Pre_finite_inputs.fn, Cert.Pre_finite_inputs.fn_part1] at e
  simp only [andi] at e
  rw [IntOp.andi_eq_one, IntOp.andi_eq_one, IntOp.andi_eq_one] at e
  obtain ⟨⟨⟨h0, h1⟩, h2⟩, h3⟩ := e
  exact ⟨finite_of_all a0 _ (fun _ => rfl) (Host.reduce_andi_all _ _ _ _ _ h0),
    finite_of_all a1 _ (fun _ => rfl) (Host.reduce_andi_all _ _ _ _ _ h1),
    finite_of_all a2 _ (fun _ => rfl) (Host.reduce_andi_all _ _ _ _ _ h2),
    finite_of_all a3 _ (fun _ => rfl) (Host.reduce_andi_all _ _ _ _ _ h3)⟩

end Cert.Spec

end
-- ==== Proof.lean ====
/-
  A graph-convolution layer with a symmetrically normalised dense adjacency: the device program against its
  plain reference, over the extended reals.

  With node features X (8192 × 128), adjacency A (8192 × 8192), weights W and bias b, write
  proj = X W + b for the projection, deg i = ∑ j, A[i,j] for the degrees and dinv i = 1 / (√(deg i) + ε) for the
  inverse square-root degrees (ε and 1 the same two words in both programs). The reference forms the normalised
  Laplacian, (A[i,j] · dinv i) · dinv j, and multiplies it with proj. The device program computes dinv in a first
  pass over A (row sums, 512 rows at a time), scales the rows of proj by dinv on the host, and in a second pass
  over A accumulates A · (proj scaled) eight column blocks at a time, scaling row i of the result by dinv i at
  the last block.

  Three of the claims are about running: each program terminates without a fault and leaves its argument
  arrays as launched. For the reference that is its run read back; for the device program, at the word level
  and at the ideal reading alike, it is the chain of host stretches and device passes of KB/Run.lean and
  KI/Run.lean. The ideal pass rewrote nothing, so the second program is the first one's text read at the ideal
  instance. The last claim is the equality of results. The device program's result array is, entry (i, o),
  (∑ j, A[i,j] · (proj[j,o] · dinv j)) · dinv i: the second pass's output array read through its blocks
  (KI/ConvValue.lean), the degree column it uses being the first pass's output (KI/DegValue.lean), the scaled
  projection the host's (KI/Boundary.lean, KI/Glue.lean). The reference's result is ∑ j, ((A[i,j] · dinv i) ·
  dinv j) · proj[j,o] (RefValue.lean). The two agree because every input entry is a real number (the
  precondition, FiniteArgs.lean): then dinv is a real number too — a negative degree has square root ⊥, and
  1 / ⊥ = 0 — and a real factor moves across a finite sum of reals (Algebra.lean).
-/
import proofs.«128527_j89799176225551_2_alg».proof.Defs
import proofs.«128527_j89799176225551_2_alg».proof.Proof.Gen.Kernel
import proofs.«128527_j89799176225551_2_alg».proof.Proof.Gen.KernelIdeal
import proofs.«128527_j89799176225551_2_alg».proof.Proof.Gen.ReferenceIdeal
import proofs.«128527_j89799176225551_2_alg».proof.Proof.Gen.ReferenceIdeal.Run
import proofs.«128527_j89799176225551_2_alg».proof.Proof.Gen.ReferenceIdeal.Read
import proofs.«128527_j89799176225551_2_alg».proof.Proof.Gen.Pre_finite_inputs
import proofs.«128527_j89799176225551_2_alg».proof.Proof.KB.Run
import proofs.«128527_j89799176225551_2_alg».proof.Proof.KI.Run
import proofs.«128527_j89799176225551_2_alg».proof.Proof.KI.DegValue
import proofs.«128527_j89799176225551_2_alg».proof.Proof.KI.ConvValue
import proofs.«128527_j89799176225551_2_alg».proof.Proof.KI.Boundary
import proofs.«128527_j89799176225551_2_alg».proof.Proof.KI.Glue
import proofs.«128527_j89799176225551_2_alg».proof.Proof.RefValue
import proofs.«128527_j89799176225551_2_alg».proof.Proof.Algebra
import proofs.«128527_j89799176225551_2_alg».proof.Proof.FiniteArgs
import Idealize.ShloMosaic.Adequacy
import Idealize.ShloMosaic.Init

noncomputable section

namespace Cert.Proof

open Idealize.ShloMosaic Idealize.ShloMosaic.TcCoe Idealize.SL.Sem Idealize.ShloMosaic.ValueIdx

section Claims

open Cert.KernelIdeal Cert.KernelIdeal.Gen Cert.KernelIdeal.Conv

/-- The device program's result array as a function of its argument arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v8) :=
  convOut (m ((c.tc : Thread nD τ).loc main_arg1))
    (hostScaled (hostProj (m ((c.tc : Thread nD τ).loc main_arg0)) (m ((c.tc : Thread nD τ).loc main_arg2)) (m ((c.tc : Thread nD τ).loc main_arg3)))
      (dinvArr (m ((c.tc : Thread nD τ).loc main_arg1))))
    (dinvArr (m ((c.tc : Thread nD τ).loc main_arg1)))

/-- The second pass's output array after the run is that function. -/
theorem kernel_result (m : (ℓ : Loc nD τ sig) → Buf (Elt Ideal) ℓ) (ρ : Dev nD → PrngReg) (c : Dev nD) :
    (convDat (V3 m ρ) c).arrAt 3 cfg1.N = result m c := by
  rw [conv_final]
  dsimp only [adjArr, xArr, dArr]
  rw [V3_arg1, V3_v7, V3_v4, V2_v3, V1_v3, V2_v4, deg_final, V1_arg1]
  rfl

end Claims

theorem frame_k : Cert.frame_Kernel := fun m ρ _ => Cert.Kernel.Conv.frame m ρ
theorem frame_ki : Cert.frame_KernelIdeal := fun m ρ _ => Cert.KernelIdeal.Conv.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same result array: the device program's is `result`, and so is the reference's
    when every argument entry is a real number. -/
theorem algebraic : Cert.algebraic_KernelIdeal_ReferenceIdeal := by
  intro m ρ m' ρ' hpre hagree
  refine ⟨fun c => result m c, ?_, ?_⟩
  · exact (θ_run Cert.KernelIdeal.defs _ _).mono
      (fun r h c => ⟨(h c).1.trans (kernel_result m ρ c), (h c).2⟩) (Cert.KernelIdeal.Conv.run_result (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    obtain ⟨hX, hA, hW, hb⟩ := Cert.Spec.finite_of_pre _ _ _ _ (hpre c)
    refine (Cert.ReferenceIdeal.Read.val_main_v16_eq (F := Ideal) _ _ _ _).trans ?_
    funext i
    obtain ⟨p, q, rfl⟩ : ∃ (p : Fin 8192) (q : Fin 128), i = ix2 p q := ⟨i 0, i 1, eq_ix2 i⟩
    refine (Cert.ReferenceIdeal.RefValue.ref_apply _ _ _ _ p q).trans ?_
    refine Eq.trans ?_ (Cert.KernelIdeal.Conv.convOut_scaled _ _ _ _ p q).symm
    exact (Cert.Spec.outScaled_eq_outLaplacian _ _ _ _ hX hA hW hb p q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
